-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel

variable [Facts]

def fn {F : FTy → Type} [FloatOps F] (main_arg0 : FVec F S4096x256 .f32) (main_arg1 : FVec F S4096x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  main_v8
-- ==== Kernel.lean ====
abbrev S4096x256 : Shape := ⟨2, ![4096, 256]⟩
abbrev S_ : Shape := ⟨0, ![]⟩
abbrev S4096 : Shape := ⟨1, ![4096]⟩
abbrev S4096x1 : Shape := ⟨2, ![4096, 1]⟩
abbrev S8192x256 : Shape := ⟨2, ![8192, 256]⟩
abbrev S8192x1 : Shape := ⟨2, ![8192, 1]⟩
abbrev S1024x256 : Shape := ⟨2, ![1024, 256]⟩
abbrev S1024x1 : Shape := ⟨2, ![1024, 1]⟩
abbrev S1024 : Shape := ⟨1, ![1024]⟩
abbrev S1024x1024 : Shape := ⟨2, ![1024, 1024]⟩
abbrev S8192 : Shape := ⟨1, ![8192]⟩

abbrev nBuf : Space → Nat
  | .hbm => 41
  | .vmem => 5
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x256, .f32⟩
  | .hbm, ⟨11, _⟩ => ⟨S4096x256, .f32⟩
  | .hbm, ⟨12, _⟩ => ⟨S4096x256, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x256, .f32⟩
  | .hbm, ⟨21, _⟩ => ⟨S4096x256, .f32⟩
  | .hbm, ⟨22, _⟩ => ⟨S4096x256, .bf16⟩
  | .hbm, ⟨23, _⟩ => ⟨S4096x256, .bf16⟩
  | .hbm, ⟨24, _⟩ => ⟨S8192x256, .bf16⟩
  | .hbm, ⟨25, _⟩ => ⟨S8192x1, .f32⟩
  | .hbm, ⟨26, _⟩ => ⟨S8192, .f32⟩
  | .hbm, ⟨27, _⟩ => ⟨S4096x256, .f32⟩
  | .hbm, ⟨28, _⟩ => ⟨S_, .f32⟩
  | .hbm, ⟨29, _⟩ => ⟨S4096, .f32⟩
  | .hbm, ⟨30, _⟩ => ⟨S8192, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S8192, .f32⟩
  | .hbm, ⟨35, _⟩ => ⟨S8192, .f32⟩
  | .hbm, ⟨36, _⟩ => ⟨S8192, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .local _ .vmem, ⟨0, _⟩ => ⟨S1024x256, .bf16⟩
  | .local _ .vmem, ⟨1, _⟩ => ⟨S1024x256, .bf16⟩
  | .local _ .vmem, ⟨2, _⟩ => ⟨S8192x256, .bf16⟩
  | .local _ .vmem, ⟨3, _⟩ => ⟨S1024x1, .f32⟩
  | .local _ .vmem, ⟨4, _⟩ => ⟨S1024x1, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_3 : Ref sig .tc := ⟨.hbm, 28, rfl⟩
abbrev main_v22 : Ref sig .tc := ⟨.hbm, 29, rfl⟩
abbrev main_v23 : Ref sig .tc := ⟨.hbm, 30, rfl⟩
abbrev main_cst_4 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_5 : Ref sig .tc := ⟨.hbm, 37, rfl⟩
abbrev main_v29 : Ref sig .tc := ⟨.hbm, 38, rfl⟩
abbrev main_cst_6 : Ref sig .tc := ⟨.hbm, 39, rfl⟩
abbrev main_v30 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def k0_mult1 : BitVec 32 :=
  let c0_i32 : BitVec 32 := 0#32
  let c1024_i32 : BitVec 32 := 1024#32
  let v7 : BitVec 32 := Scalar.muli c0_i32 c1024_i32
  v7
def k0_off1 (c0_i32 : BitVec 32) : Fin 2 → Nat :=
  let c1024_i32 : BitVec 32 := 1024#32
  let v7 : BitVec 32 := Scalar.muli c0_i32 c1024_i32
  let v8 : BitVec 32 := v7
  let v9 : Index := Scalar.indexCast v8
  let c0_2 : Index := 0#32
  ![v9.toNat, 0]
def k0_mult2 : BitVec 32 :=
  let c1_i32 : BitVec 32 := 1#32
  let c1024_i32_6 : BitVec 32 := 1024#32
  let v19 : BitVec 32 := Scalar.muli c1_i32 c1024_i32_6
  v19
def k0_mult3 : BitVec 32 :=
  let c2_i32 : BitVec 32 := 2#32
  let c1024_i32_11 : BitVec 32 := 1024#32
  let v31 : BitVec 32 := Scalar.muli c2_i32 c1024_i32_11
  v31
def k0_mult4 : BitVec 32 :=
  let c3_i32 : BitVec 32 := 3#32
  let c1024_i32_16 : BitVec 32 := 1024#32
  let v43 : BitVec 32 := Scalar.muli c3_i32 c1024_i32_16
  v43
def k0_mult5 : BitVec 32 :=
  let c4_i32 : BitVec 32 := 4#32
  let c1024_i32_21 : BitVec 32 := 1024#32
  let v55 : BitVec 32 := Scalar.muli c4_i32 c1024_i32_21
  v55
def k0_mult6 : BitVec 32 :=
  let c5_i32 : BitVec 32 := 5#32
  let c1024_i32_26 : BitVec 32 := 1024#32
  let v67 : BitVec 32 := Scalar.muli c5_i32 c1024_i32_26
  v67
def k0_mult7 : BitVec 32 :=
  let c6_i32 : BitVec 32 := 6#32
  let c1024_i32_31 : BitVec 32 := 1024#32
  let v79 : BitVec 32 := Scalar.muli c6_i32 c1024_i32_31
  v79
def k0_mult8 : BitVec 32 :=
  let c7_i32 : BitVec 32 := 7#32
  let c1024_i32_36 : BitVec 32 := 1024#32
  let v91 : BitVec 32 := Scalar.muli c7_i32 c1024_i32_36
  v91
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  reducesTo_S4096x256_S4096_d1 : S4096x256.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  bitsLt_bf16_f32 : FTy.bits .bf16 < FTy.bits .f32
  concatenates_S4096x256_S4096x256_S8192x256_d0 : Shape.Concatenates [S4096x256, S4096x256] S8192x256 0
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  reduces_S1024x256_S1024 : S1024x256.Reduces [1] S1024
  shapeCasts_S1024_S1024x1 : S1024.ShapeCasts S1024x1
  reduces_S1024x1024_S1024 : S1024x1024.Reduces [1] S1024
  inb_S1024x1_S1024x1_0_0 : ∀ a, (![0, 0] : Fin 2 → Nat) a + S1024x1.size a ≤ S1024x1.size a
  h_S1024x1 : 0 < S1024x1.numel
  shapeCasts_S8192x1_S8192 : S8192x1.ShapeCasts S8192
  concatenates_S4096_S4096_S8192_d0 : Shape.Concatenates [S4096, S4096] S8192 0
  bcast_S_S8192 : S_.BroadcastsInDim S8192 (![] : Fin 0 → Fin S8192.rank)
  reducesTo_S8192_S_d0 : S8192.ReducesTo [0] S_
  dot_S1024x256_S1024x256_S1024x1024_1_1_0_0_n_n_wf : DotDims.WF S1024x256 S1024x256 S1024x1024 [1] [1] [0] [0] [] []
  hrank0 : 0 < grid0.rank
  k0_mult1_dvd : 1024 ∣ k0_mult1.toNat
  k0_off1_inb : ∀ (r : Fin 8), ∀ a, (k0_off1 (BitVec.ofNat 32 r.val)) a + S1024x256.size a ≤ S8192x256.size a
  k0_mult2_dvd : 1024 ∣ k0_mult2.toNat
  k0_mult3_dvd : 1024 ∣ k0_mult3.toNat
  k0_mult4_dvd : 1024 ∣ k0_mult4.toNat
  k0_mult5_dvd : 1024 ∣ k0_mult5.toNat
  k0_mult6_dvd : 1024 ∣ k0_mult6.toNat
  k0_mult7_dvd : 1024 ∣ k0_mult7.toNat
  k0_mult8_dvd : 1024 ∣ k0_mult8.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .bf16 = 32 ∨ (Rect.block (s := S8192x256) S1024x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S8192x256.size a
  hwx0_1 : ∀ i : grid0.Coords, EltTy.bits .bf16 = 32 ∨ (Rect.block (s := S8192x256) S8192x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)

variable [Facts₀]

def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf

abbrev win0_0 : Pipeline.Window sig grid0 :=
  Pipeline.Window.ofSpec (Memref.whole main_v18) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S8192x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x256 : Shape := ⟨2, ![4096, 256]⟩
abbrev S_ : Shape := ⟨0, ![]⟩
abbrev S4096 : Shape := ⟨1, ![4096]⟩
abbrev S4096x1 : Shape := ⟨2, ![4096, 1]⟩
abbrev S8192x256 : Shape := ⟨2, ![8192, 256]⟩
abbrev S256x8192 : Shape := ⟨2, ![256, 8192]⟩
abbrev S8192x8192 : Shape := ⟨2, ![8192, 8192]⟩
abbrev S4096x2 : Shape := ⟨2, ![4096, 2]⟩
abbrev S8192 : Shape := ⟨1, ![8192]⟩

abbrev nBuf : Space → Nat
  | .hbm => 99
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x256, .f32⟩
  | .hbm, ⟨11, _⟩ => ⟨S4096x256, .f32⟩
  | .hbm, ⟨12, _⟩ => ⟨S4096x256, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x256, .f32⟩
  | .hbm, ⟨21, _⟩ => ⟨S4096x256, .f32⟩
  | .hbm, ⟨22, _⟩ => ⟨S8192x256, .f32⟩
  | .hbm, ⟨23, _⟩ => ⟨S256x8192, .f32⟩
  | .hbm, ⟨24, _⟩ => ⟨S8192x8192, .f32⟩
  | .hbm, ⟨25, _⟩ => ⟨S4096, .i32⟩
  | .hbm, ⟨26, _⟩ => ⟨S4096, .i32⟩
  | .hbm, ⟨27, _⟩ => ⟨S_, .i32⟩
  | .hbm, ⟨28, _⟩ => ⟨S4096, .i32⟩
  | .hbm, ⟨29, _⟩ => ⟨S4096, .i32⟩
  | .hbm, ⟨30, _⟩ => ⟨S_, .i32⟩
  | .hbm, ⟨31, _⟩ => ⟨S4096, .i32⟩
  | .hbm, ⟨32, _⟩ => ⟨S4096, .i1⟩
  | .hbm, ⟨33, _⟩ => ⟨S_, .i32⟩
  | .hbm, ⟨34, _⟩ => ⟨S4096, .i32⟩
  | .hbm, ⟨35, _⟩ => ⟨S4096, .i32⟩
  | .hbm, ⟨36, _⟩ => ⟨S4096, .i32⟩
  | .hbm, ⟨37, _⟩ => ⟨S_, .i32⟩
  | .hbm, ⟨38, _⟩ => ⟨S4096, .i32⟩
  | .hbm, ⟨39, _⟩ => ⟨S4096, .i1⟩
  | .hbm, ⟨40, _⟩ => ⟨S_, .i32⟩
  | .hbm, ⟨41, _⟩ => ⟨S4096, .i32⟩
  | .hbm, ⟨42, _⟩ => ⟨S4096, .i32⟩
  | .hbm, ⟨43, _⟩ => ⟨S4096, .i32⟩
  | .hbm, ⟨44, _⟩ => ⟨S4096x1, .i32⟩
  | .hbm, ⟨45, _⟩ => ⟨S4096x1, .i32⟩
  | .hbm, ⟨46, _⟩ => ⟨S4096x2, .i32⟩
  | .hbm, ⟨47, _⟩ => ⟨S4096, .f32⟩
  | .hbm, ⟨48, _⟩ => ⟨S4096, .i32⟩
  | .hbm, ⟨49, _⟩ => ⟨S4096, .i32⟩
  | .hbm, ⟨50, _⟩ => ⟨S_, .i32⟩
  | .hbm, ⟨51, _⟩ => ⟨S4096, .i32⟩
  | .hbm, ⟨52, _⟩ => ⟨S4096, .i32⟩
  | .hbm, ⟨53, _⟩ => ⟨S_, .i32⟩
  | .hbm, ⟨54, _⟩ => ⟨S4096, .i32⟩
  | .hbm, ⟨55, _⟩ => ⟨S4096, .i1⟩
  | .hbm, ⟨56, _⟩ => ⟨S_, .i32⟩
  | .hbm, ⟨57, _⟩ => ⟨S4096, .i32⟩
  | .hbm, ⟨58, _⟩ => ⟨S4096, .i32⟩
  | .hbm, ⟨59, _⟩ => ⟨S4096, .i32⟩
  | .hbm, ⟨60, _⟩ => ⟨S_, .i32⟩
  | .hbm, ⟨61, _⟩ => ⟨S4096, .i32⟩
  | .hbm, ⟨62, _⟩ => ⟨S4096, .i1⟩
  | .hbm, ⟨63, _⟩ => ⟨S_, .i32⟩
  | .hbm, ⟨64, _⟩ => ⟨S4096, .i32⟩
  | .hbm, ⟨65, _⟩ => ⟨S4096, .i32⟩
  | .hbm, ⟨66, _⟩ => ⟨S4096, .i32⟩
  | .hbm, ⟨67, _⟩ => ⟨S4096x1, .i32⟩
  | .hbm, ⟨68, _⟩ => ⟨S4096x1, .i32⟩
  | .hbm, ⟨69, _⟩ => ⟨S4096x2, .i32⟩
  | .hbm, ⟨70, _⟩ => ⟨S4096, .f32⟩
  | .hbm, ⟨71, _⟩ => ⟨S8192, .f32⟩
  | .hbm, ⟨72, _⟩ => ⟨S8192x8192, .i32⟩
  | .hbm, ⟨73, _⟩ => ⟨S8192x8192, .i32⟩
  | .hbm, ⟨74, _⟩ => ⟨S_, .i32⟩
  | .hbm, ⟨75, _⟩ => ⟨S8192x8192, .i32⟩
  | .hbm, ⟨76, _⟩ => ⟨S8192x8192, .i32⟩
  | .hbm, ⟨77, _⟩ => ⟨S8192x8192, .i1⟩
  | .hbm, ⟨78, _⟩ => ⟨S8192x8192, .f32⟩
  | .hbm, ⟨79, _⟩ => ⟨S_, .f32⟩
  | .hbm, ⟨80, _⟩ => ⟨S8192x8192, .f32⟩
  | .hbm, ⟨81, _⟩ => ⟨S8192x8192, .f32⟩
  | .hbm, ⟨82, _⟩ => ⟨S_, .f32⟩
  | .hbm, ⟨83, _⟩ => ⟨S8192x8192, .f32⟩
  | .hbm, ⟨84, _⟩ => ⟨S8192x8192, .f32⟩
  | .hbm, ⟨85, _⟩ => ⟨S8192x8192, .f32⟩
  | .hbm, ⟨86, _⟩ => ⟨S8192x8192, .f32⟩
  | .hbm, ⟨87, _⟩ => ⟨S_, .f32⟩
  | .hbm, ⟨88, _⟩ => ⟨S8192, .f32⟩
  | .hbm, ⟨89, _⟩ => ⟨S_, .f32⟩
  | .hbm, ⟨90, _⟩ => ⟨S8192, .f32⟩
  | .hbm, ⟨91, _⟩ => ⟨S8192, .f32⟩
  | .hbm, ⟨92, _⟩ => ⟨S8192, .f32⟩
  | .hbm, ⟨93, _⟩ => ⟨S8192, .f32⟩
  | .hbm, ⟨94, _⟩ => ⟨S8192, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_call0_v0 : Ref sig .tc := ⟨.hbm, 25, rfl⟩
abbrev main_call0_v1 : Ref sig .tc := ⟨.hbm, 26, rfl⟩
abbrev main_call0_c : Ref sig .tc := ⟨.hbm, 27, rfl⟩
abbrev main_call0_v2 : Ref sig .tc := ⟨.hbm, 28, rfl⟩
abbrev main_call0_v3 : Ref sig .tc := ⟨.hbm, 29, rfl⟩
abbrev main_call0_c_0 : Ref sig .tc := ⟨.hbm, 30, rfl⟩
abbrev main_call0_v4 : Ref sig .tc := ⟨.hbm, 31, rfl⟩
abbrev main_call0_v5 : Ref sig .tc := ⟨.hbm, 32, rfl⟩
abbrev main_call0_c_1 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_c_2 : Ref sig .tc := ⟨.hbm, 37, rfl⟩
abbrev main_call0_v9 : Ref sig .tc := ⟨.hbm, 38, rfl⟩
abbrev main_call0_v10 : Ref sig .tc := ⟨.hbm, 39, rfl⟩
abbrev main_call0_c_3 : Ref sig .tc := ⟨.hbm, 40, rfl⟩
abbrev main_call0_v11 : Ref sig .tc := ⟨.hbm, 41, rfl⟩
abbrev main_call0_v12 : Ref sig .tc := ⟨.hbm, 42, rfl⟩
abbrev main_call0_v13 : Ref sig .tc := ⟨.hbm, 43, rfl⟩
abbrev main_call0_v14 : Ref sig .tc := ⟨.hbm, 44, rfl⟩
abbrev main_call0_v15 : Ref sig .tc := ⟨.hbm, 45, rfl⟩
abbrev main_call0_v16 : Ref sig .tc := ⟨.hbm, 46, rfl⟩
abbrev main_v19 : Ref sig .tc := ⟨.hbm, 47, rfl⟩
abbrev main_call1_v0 : Ref sig .tc := ⟨.hbm, 48, rfl⟩
abbrev main_call1_v1 : Ref sig .tc := ⟨.hbm, 49, rfl⟩
abbrev main_call1_c : Ref sig .tc := ⟨.hbm, 50, rfl⟩
abbrev main_call1_v2 : Ref sig .tc := ⟨.hbm, 51, rfl⟩
abbrev main_call1_v3 : Ref sig .tc := ⟨.hbm, 52, rfl⟩
abbrev main_call1_c_0 : Ref sig .tc := ⟨.hbm, 53, rfl⟩
abbrev main_call1_v4 : Ref sig .tc := ⟨.hbm, 54, rfl⟩
abbrev main_call1_v5 : Ref sig .tc := ⟨.hbm, 55, rfl⟩
abbrev main_call1_c_1 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_c_2 : Ref sig .tc := ⟨.hbm, 60, rfl⟩
abbrev main_call1_v9 : Ref sig .tc := ⟨.hbm, 61, rfl⟩
abbrev main_call1_v10 : Ref sig .tc := ⟨.hbm, 62, rfl⟩
abbrev main_call1_c_3 : Ref sig .tc := ⟨.hbm, 63, rfl⟩
abbrev main_call1_v11 : Ref sig .tc := ⟨.hbm, 64, rfl⟩
abbrev main_call1_v12 : Ref sig .tc := ⟨.hbm, 65, rfl⟩
abbrev main_call1_v13 : Ref sig .tc := ⟨.hbm, 66, rfl⟩
abbrev main_call1_v14 : Ref sig .tc := ⟨.hbm, 67, rfl⟩
abbrev main_call1_v15 : Ref sig .tc := ⟨.hbm, 68, rfl⟩
abbrev main_call1_v16 : Ref sig .tc := ⟨.hbm, 69, rfl⟩
abbrev main_v20 : Ref sig .tc := ⟨.hbm, 70, rfl⟩
abbrev main_v21 : Ref sig .tc := ⟨.hbm, 71, rfl⟩
abbrev main_v22 : Ref sig .tc := ⟨.hbm, 72, rfl⟩
abbrev main_v23 : Ref sig .tc := ⟨.hbm, 73, rfl⟩
abbrev main_c : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_cst_3 : Ref sig .tc := ⟨.hbm, 79, rfl⟩
abbrev main_v28 : Ref sig .tc := ⟨.hbm, 80, rfl⟩
abbrev main_v29 : Ref sig .tc := ⟨.hbm, 81, rfl⟩
abbrev main_cst_4 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_v33 : Ref sig .tc := ⟨.hbm, 86, rfl⟩
abbrev main_cst_5 : Ref sig .tc := ⟨.hbm, 87, rfl⟩
abbrev main_v34 : Ref sig .tc := ⟨.hbm, 88, rfl⟩
abbrev main_cst_6 : Ref sig .tc := ⟨.hbm, 89, rfl⟩
abbrev main_v35 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_cst_7 : Ref sig .tc := ⟨.hbm, 95, rfl⟩
abbrev main_v40 : Ref sig .tc := ⟨.hbm, 96, rfl⟩
abbrev main_cst_8 : Ref sig .tc := ⟨.hbm, 97, rfl⟩
abbrev main_v41 : Ref sig .tc := ⟨.hbm, 98, rfl⟩

abbrev nD : Nat := 1
abbrev τ : Topo := Topo.v7x

variable {F : FTy → Type} [FloatOps F]

class Facts₀ : Prop where
  reducesTo_S4096x256_S4096_d1 : S4096x256.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  concatenates_S4096x256_S4096x256_S8192x256_d0 : Shape.Concatenates [S4096x256, S4096x256] S8192x256 0
  transposes_S8192x256_S256x8192_1_0 : S8192x256.Transposes [1, 0] S256x8192
  bcast_S_S4096 : S_.BroadcastsInDim S4096 (![] : Fin 0 → Fin S4096.rank)
  concatenates_S4096x1_S4096x1_S4096x2_d1 : Shape.Concatenates [S4096x1, S4096x1] S4096x2 1
  concatenates_S4096_S4096_S8192_d0 : Shape.Concatenates [S4096, S4096] S8192 0
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  dot_S8192x256_S256x8192_S8192x8192_1_0_0_1_n_n_wf : DotDims.WF S8192x256 S256x8192 S8192x8192 [1] [0] [0] [1] [] []
  gather_S8192x8192_S4096x2_S4096_n_01_n_n_01_1_11_wf : GatherDims.WF S8192x8192 S4096x2 S4096 [] [0, 1] [] [0, 1] [] 1 ![1, 1]

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def gather_S8192x8192_S4096x2_S4096_n_01_n_n_01_1_11 : GatherDims S8192x8192 S4096x2 S4096 where
  offsetDims := []
  collapsedSliceDims := [0, 1]
  operandBatchingDims := []
  startIndicesBatchingDims := []
  startIndexMap := [0, 1]
  indexVectorDim := 1
  sliceSizes := ![1, 1]
  wf := gather_S8192x8192_S4096x2_S4096_n_01_n_n_01_1_11_wf

class Facts : Prop extends Facts₀ where

variable [Facts]
-- ==== Proof.WordBody.lean ====
/-
  The pipelined region of this program, run at every grid point: what the kernel body leaves in the output block, and
  that the body may be called at each of the eight grid points.

  The region has three windows. Window 0 is the block of 1024 rows of the stacked array `z` that grid point `t` owns;
  window 1 is ALL of the same array `z`, fetched once; window 2 is the block of 1024 entries of the output column that
  point `t` writes back. The body reads its row block once, reads the whole array in eight pieces of 1024 rows, and
  stores one column of 1024 numbers: a pure function (`colOf`) of the row block and the whole array.

  Windows 0 and 1 look at ONE array. The array is only read, so the two windows hold it together: each holds one half of
  the permission to it (`q` below), which is all a fetch needs.
-/
import proofs.«146991_j9397388444288_2_alg».proof.Proof.Gen.Kernel.Launch
import proofs.«146991_j9397388444288_2_alg».proof.Proof.Gen.Kernel.Skeleton
import proofs.«146991_j9397388444288_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents the region is entered with: a parameter here, fixed by the run
variable (V : (c : Dev nD) → (b : Ref sig .tc) → Buf (Elt F) ((c : Thread nD τ).loc b))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block is in its staging buffer at every point: it is fetched at every point. -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The whole array is in its staging buffer at every point: fetched at the first, and its block never moves. -/
theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

/-- The whole row block, -/
abbrev rq : Rect S1024x256 := Rect.unit (s := S1024x256) ![0, 0] S1024x256.size inb_S1024x256_S1024x256_0_0
/-- the eight pieces of 1024 rows of the whole array, -/
abbrev rk0 : Rect S8192x256 := Rect.unit (s := S8192x256) ![0, 0] S1024x256.size (by decide)
abbrev rk1 : Rect S8192x256 := Rect.unit (s := S8192x256) ![1024, 0] S1024x256.size (by decide)
abbrev rk2 : Rect S8192x256 := Rect.unit (s := S8192x256) ![2048, 0] S1024x256.size (by decide)
abbrev rk3 : Rect S8192x256 := Rect.unit (s := S8192x256) ![3072, 0] S1024x256.size (by decide)
abbrev rk4 : Rect S8192x256 := Rect.unit (s := S8192x256) ![4096, 0] S1024x256.size (by decide)
abbrev rk5 : Rect S8192x256 := Rect.unit (s := S8192x256) ![5120, 0] S1024x256.size (by decide)
abbrev rk6 : Rect S8192x256 := Rect.unit (s := S8192x256) ![6144, 0] S1024x256.size (by decide)
abbrev rk7 : Rect S8192x256 := Rect.unit (s := S8192x256) ![7168, 0] S1024x256.size (by decide)
/-- the whole output block. -/
abbrev ro : Rect S1024x1 := Rect.unit (s := S1024x1) ![0, 0] S1024x1.size inb_S1024x1_S1024x1_0_0

/-! ## What the body leaves in the output block -/

/-- The column of 1024 numbers the body computes from its row block `x0` and the whole array `x1`: the running sum over
    the first two pieces, then the next four, then the last two, less the diagonal term (the payloads are the printed
    arithmetic, named by the generated skeleton). -/
def colOf (x0 : Vec F S1024x256 .bf16) (x1 : Vec F S8192x256 .bf16) : FVec F S1024x1 .f32 :=
  k0_pay1 (k0_pay2 (View.ld x0 rq)) (k0_pay3 (View.ld x0 rq))
    (k0_pay7 (k0_pay2 (View.ld x0 rq)) (k0_pay4 (View.ld x0 rq) (View.ld x1 rk0) (View.ld x1 rk1)) (k0_pay5 (View.ld x0 rq) (View.ld x1 rk2))
      (k0_pay6 (F := F)) (View.ld x1 rk3) (View.ld x1 rk4) (View.ld x1 rk5))
    (View.ld x1 rk6) (View.ld x1 rk7)

/-- The output block's staging buffer after the body: its one store, of the whole block. -/
def out2 (x0 : Vec F S1024x256 .bf16) (x1 : Vec F S8192x256 .bf16) : Vec F S1024x1 .f32 :=
  View.canon [⟨ro, colOf x0 x1⟩]

/-- The store covers the block. -/
theorem cover2 (p0 : Vec F S1024x1 .f32) (y : S1024x1.Idx) :
    ∃ pc ∈ ([⟨ro, p0⟩] : List (View.Piece (Elt F) S1024x1 .f32)), y ∈ pc.1.set :=
  View.cover_of_tiled [⟨ro, p0⟩] S1024x1.size (by rfl) y

/-! ## The body's triple -/

set_option maxHeartbeats 4000000 in
/-- The body, on whole staging buffers holding `x0`, `x1` and anything, runs to the end leaving the two inputs as they were and
    the output block at `out2 x0 x1`. -/
theorem sound_kernel (c : Dev nD) (E : Set ℕ) (i : grid0.Coords) (arg1 : Memref sig .tc .vmem S1024x256 .bf16) (harg1 : arg1.IsWhole)
    (arg2 : Memref sig .tc .vmem S8192x256 .bf16) (harg2 : arg2.IsWhole) (arg3 : Memref sig .tc .vmem S1024x1 .f32) (harg3 : arg3.IsWhole)
    (x0 : Vec F S1024x256 .bf16) (x1 : Vec F S8192x256 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2 x0 x1)) -∗ K ⟨⟩))
      ⊢ wp frame (wpE (defs₀ (F := F)) Variants.none c none) E (cc0__denom_kernel i arg1 harg1 arg2 harg2 arg3 harg3) K := by
  simp only [cc0__denom_kernel_eq_skeleton]; unfold cc0__denom_kernel_skel
  simp only [k0_part1_eq_skeleton, k0_part2_eq_skeleton]; unfold k0_part1_skel k0_part2_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover2 _)

/-! ## The proof data -/

/-- What each window's staging buffer holds after the body at point `t`: the inputs their blocks, the output `out2` of them.
    The one array behind windows 0 and 1 is held half and half. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => out2 (iblk V c 0 t) (iblk V c 1 t)
  Φ _ := Pipeline.ΦA spec0 c
  q w := match w with
    | ⟨0, _⟩ => fullShare.left
    | ⟨1, _⟩ => fullShare.right
    | ⟨2, _⟩ => fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = out2 (iblk V c 0 t) (iblk V c 1 t) := by dsimp only [dat]

theorem before_0 (c : Dev nD) (t : Fin cfg0.N) (d) : (dat V c).before 0 t d = iblk V c 0 t :=
  before0_of V (dat V c) (A_eq V c 0) (after_0 V c) t d
theorem before_1 (c : Dev nD) (t : Fin cfg0.N) (d) : (dat V c).before 1 t d = iblk V c 1 t :=
  before1_of V (dat V c) (A_eq V c 1) (after_1 V c) t d

/-! ## The body obligation, at a generic point -/

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- The body at any point: the input buffers hold their blocks, so the triple applies; the invariant and what the core owes pass
    through untouched. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dat (F := F) V c) (defs₀ (F := F)) Variants.none () Set.univ := fun t => by
  rw [bigSep_W0, bigSep_W0]
  exact sound_body V c t

end Cert.Kernel.Body

end
-- ==== Proof.WordRun.lean ====
/-
  The whole program run: the host operations before the region, the region at its eight grid points, the host operations
  after it — every weakly fair execution ends, nothing faults, and every buffer the host sees ends at a named value.

  The contents of the buffers are followed through the three stretches: `W1` after the first host stretch (what the
  region finds), `W2` after the region (only the output column has changed: it holds what the eight write-backs left),
  `W3` after the last host stretch (what the program returns).

  The region reads one array through two windows. At its entry the permission to that array is cut in two halves, one per
  window; at its exit the halves — both still at the contents the region found, since an input array is never written — are
  joined again.
-/
import proofs.«146991_j9397388444288_2_alg».proof.Proof.WordBody

set_option maxRecDepth 16384

noncomputable section

namespace Cert.Kernel.Run

open Cert.Kernel Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the first host stretch: what the region finds. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the region: the output column at what the write-backs left, every other buffer as the region found it. -/
def W2 (c : Dev nD) : Valuation τ sig (Elt F) := fun b =>
  if h : Proc.devRef .tc (Pipeline.arrRef spec0 2) = b then
    cast (congrArg (fun b' : DevRef τ sig => b'.ty.Contents (Elt F)) h) ((dat (V1 m ρ) c).arrAt 2 cfg0.N)
  else W1 m ρ c b
abbrev V2 : (c : Dev nD) → (b : Ref sig .tc) → Buf (Elt F) ((c : Thread nD τ).loc b) := fun c b => W2 m ρ c b

theorem W2_out (c : Dev nD) : W2 m ρ c (Proc.devRef .tc (Pipeline.arrRef spec0 2)) = (dat (V1 m ρ) c).arrAt 2 cfg0.N := by
  unfold W2; rw [dif_pos rfl]; rfl
theorem W2_of_ne (c : Dev nD) (b : Ref sig .tc) (hb : Pipeline.arrRef spec0 2 ≠ b) :
    W2 m ρ c (Proc.devRef .tc b) = W1 m ρ c (Proc.devRef .tc b) := by
  unfold W2; rw [dif_neg]; intro e; exact hb (Proc.devRef_injective _ e)

/-- After the last host stretch: what the program returns. -/
abbrev W3 : Dev nD → Valuation τ sig (Elt F) := fun c => StableHlo.after hostOps1 (W2 m ρ c)

/-! ## The one array behind two windows: cut at the entry, joined at the exit -/

/-- The windows' arrays are two buffers: the stacked array (windows 0 and 1) and the output column (window 2). -/
theorem arrs_eq : Finset.univ.image (Pipeline.arrRef spec0) = ({main_v18, main_v19} : Finset (Ref sig .tc)) := by decide

/-- ENTRY: the two buffers, each whole at the full permission at the contents `V`, are the region's arrays at their entry
    contents — the stacked array's permission cut into its two halves, one for each window that reads it. -/
theorem entry_split (V : (c : Dev nD) → (b : Ref sig .tc) → Buf (Elt F) ((c : Thread nD τ).loc b)) (c : Dev nD) :
    (Pipeline.arrBufs (Ix := Unit) (Name := ℕ) (U := UR sig nD τ) (Lvl := ℕ) spec0 c (V c) : sProp 𝕄)
      ⊢ (dat V c).arrays ((dat V c).arrAt · 0) := by
  unfold Pipeline.arrBufs Dat.arrays
  rw [arrs_eq, bigSep_insert (by decide), bigSep_singleton, bigSep_W0]
  rw [(arr_whole0 0).set_eq_univ, (arr_whole0 2).set_eq_univ]
  show iprop(((c : Thread nD τ).loc main_v18 ↦{fullShare} V c main_v18) ∗ ((c : Thread nD τ).loc main_v19 ↦{fullShare} V c main_v19))
    ⊢ iprop(((c : Thread nD τ).loc main_v18 ↦{fullShare.left} V c main_v18) ∗ ((c : Thread nD τ).loc main_v18 ↦{fullShare.right} V c main_v18)
        ∗ ((c : Thread nD τ).loc main_v19 ↦{fullShare} V c main_v19))
  have hcut : ((c : Thread nD τ).loc main_v18 ↦{fullShare} V c main_v18 : sProp 𝕄)
      ⊢ iprop(((c : Thread nD τ).loc main_v18 ↦{fullShare.left} V c main_v18) ∗ ((c : Thread nD τ).loc main_v18 ↦{fullShare.right} V c main_v18)) :=
    (pointsTo_share (PosShare.mem_left_op_right fullShare)).1
  iintro ⟨H18, H19⟩
  ihave H := hcut $$ H18
  icases H with ⟨Hl, Hr⟩
  isplitl [Hl]; · iexact Hl
  isplitl [Hr]; · iexact Hr
  iexact H19

/-- EXIT: the region's arrays at their final contents — the stacked array's two halves, both still at the contents the region
    found, and the output column at what the write-backs left — together with every other buffer as the region found it, are
    all the buffers at `V2`. -/
theorem exit_join (c : Dev nD) :
    iprop((dat (V1 m ρ) c).arrays ((dat (V1 m ρ) c).arrAt · cfg0.N)
        ∗ Pipeline.unscopedRest (Ix := Unit) (Name := ℕ) (U := UR sig nD τ) (Lvl := ℕ) spec0 c (V1 m ρ c))
      ⊢ (unscopedBufs c (V2 m ρ c) : sProp 𝕄) := by
  rw [Pipeline.unscopedBufs_split₀ cfgs 0 winFacts₀0.arr_unscoped c (V2 m ρ c)]
  refine sep_mono ?_ (Entails.of_eq ?_)
  · unfold Pipeline.arrBufs Dat.arrays
    rw [arrs_eq, bigSep_insert (by decide), bigSep_singleton, bigSep_W0]
    rw [(arr_whole0 0).set_eq_univ, (arr_whole0 2).set_eq_univ]
    have h0 : (dat (V1 m ρ) c).arrAt 0 cfg0.N = V1 m ρ c main_v18 := ((dat (V1 m ρ) c).arrAt_in 0 rfl _).trans (A_eq (V1 m ρ) c 0)
    have h1 : (dat (V1 m ρ) c).arrAt 1 cfg0.N = V1 m ρ c main_v18 := ((dat (V1 m ρ) c).arrAt_in 1 rfl _).trans (A_eq (V1 m ρ) c 1)
    have e18 : V2 m ρ c main_v18 = V1 m ρ c main_v18 := W2_of_ne m ρ c main_v18 (by decide)
    have e19 : V2 m ρ c main_v19 = (dat (V1 m ρ) c).arrAt 2 cfg0.N := W2_out m ρ c
    show iprop(((c : Thread nD τ).loc main_v18 ↦{fullShare.left} (dat (V1 m ρ) c).arrAt 0 cfg0.N)
        ∗ ((c : Thread nD τ).loc main_v18 ↦{fullShare.right} (dat (V1 m ρ) c).arrAt 1 cfg0.N)
        ∗ ((c : Thread nD τ).loc main_v19 ↦{fullShare} (dat (V1 m ρ) c).arrAt 2 cfg0.N))
      ⊢ iprop(((c : Thread nD τ).loc main_v18 ↦{fullShare} V2 m ρ c main_v18) ∗ ((c : Thread nD τ).loc main_v19 ↦{fullShare} V2 m ρ c main_v19))
    rw [h0, h1, e18, e19]
    have hjoin : iprop(((c : Thread nD τ).loc main_v18 ↦{fullShare.left} V1 m ρ c main_v18) ∗ ((c : Thread nD τ).loc main_v18 ↦{fullShare.right} V1 m ρ c main_v18))
        ⊢ ((c : Thread nD τ).loc main_v18 ↦{fullShare} V1 m ρ c main_v18 : sProp 𝕄) :=
      (pointsTo_share (PosShare.mem_left_op_right fullShare)).2
    iintro ⟨Hl, Hr, H19⟩
    isplitl [Hl Hr]
    · iapply hjoin; isplitl [Hl] <;> iassumption
    iexact H19
  · unfold Pipeline.unscopedRest
    exact bigSep_congr fun b hb => by
      rw [show V2 m ρ c b = V1 m ρ c b from W2_of_ne m ρ c b fun e =>
        (Finset.mem_sdiff.mp hb).2 (Finset.mem_image.mpr ⟨2, Finset.mem_univ _, e⟩)]

/-! ## The proof data family and the thread state -/

/-- No prefetched tables. -/
abbrev adm : (p : Fin 1) → (pcfgs (F := F) p).Adm := fun p => (cfgs p).toPCfg_adm
/-- The one pipeline's proof data, at the contents the region finds. -/
def pdats : (p : Fin 1) → (c : Dev nD) → Dat τ (Elt F) Unit ℕ (UR sig nD τ) ℕ (Pipeline.pin (pcfgs (F := F)) adm p) c
  | ⟨0, _⟩ => fun c => dat (V1 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every stretch: the generator register at some state, and nothing owed. -/
abbrev R (c : Dev nD) : sProp 𝕄 := iprop((∃ r, prngReg c r) ∗ ∃ W, owes (c : Thread nD τ) (0 : CellTallies nD τ sig Unit) W)
/-- A host stretch as a segment over every buffer the host sees. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
/-- A buffer the host sees is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every buffer at the contents after the last stretch, the generator register at some state. -/
abbrev Tₙ (c : Dev nD) : sProp 𝕄 := iprop(StableHlo.held (c : Thread nD τ) (Pipeline.ucRefs τ sig) (W3 m ρ c) ∗ ∃ r, prngReg c r)

/-! ## The region as a segment -/

set_option backward.isDefEq.respectTransparency.types false in
/-- The region: entered from every buffer at `W1`, left at `W2`. Its two arrays are taken out of the buffers, the shared one cut in
    halves (`entry_split`), and put back joined (`exit_join`); the generator register goes into the invariant and comes back. -/
def reg : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit : (unscopedBufs c (V1 m ρ c) : sProp 𝕄)
        ⊢ iprop((dat (V1 m ρ) c).arrays ((dat (V1 m ρ) c).arrAt · 0)
          ∗ Pipeline.unscopedRest (Ix := Unit) (Name := ℕ) (U := UR sig nD τ) (Lvl := ℕ) spec0 c (V1 m ρ c)) := by
      rw [Pipeline.unscopedBufs_split₀ cfgs 0 winFacts₀0.arr_unscoped c (V1 m ρ c)]
      exact sep_mono (entry_split (V1 m ρ) c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit_join m ρ c
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## The program as three segments, and its run -/

abbrev segs : List (Pipeline.Seg (pcfgs (F := F)) adm (pdats m ρ) () defs₀ 𝒱₀ L lv) :=
  [ .host (hseg hostOps0 hostOps0_sub hostOps0_fresh (W0 m ρ)),
    .region (reg m ρ),
    .host (hseg hostOps1 hostOps1_sub hostOps1_fresh (W2 m ρ)) ]
theorem main_run (c : Dev nD) : main (F := F) c = Pipeline.Seg.run (segs m ρ) := (main_chain c).trans (by chain_rfl)

set_option backward.isDefEq.respectTransparency.types false in
/-- THE RUN: from any memory with zero counters, every weakly fair execution of the program ends, nothing faulting, with
    every buffer the host sees at its `W3` contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show iprop(StableHlo.held (c : Thread nD τ) (Pipeline.ucRefs τ sig) (W3 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-! ## The arguments end as launched

No host operation writes an argument and the region writes only its output column, so the contents of an argument's buffer
walk back through the three stretches to the launch memory. -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- THE FRAME: every weakly fair execution ends, nothing faulting, with both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W3_main_arg0 m ρ c),
     (h c _ (mem_uc main_arg1 (by decide))).trans (W3_main_arg1 m ρ c)⟩) (run_main m ρ)

end Cert.Kernel.Run

end
-- ==== Proof.IdealBody.lean ====
/-
  The pipelined region of this program, run at every grid point: what the kernel body leaves in the output block, and
  that the body may be called at each of the eight grid points.

  The region has three windows. Window 0 is the block of 1024 rows of the stacked array `z` that grid point `t` owns;
  window 1 is ALL of the same array `z`, fetched once; window 2 is the block of 1024 entries of the output column that
  point `t` writes back. The body reads its row block once, reads the whole array in eight pieces of 1024 rows, and
  stores one column of 1024 numbers: a pure function (`colOf`) of the row block and the whole array.

  Windows 0 and 1 look at ONE array. The array is only read, so the two windows hold it together: each holds one half of
  the permission to it (`q` below), which is all a fetch needs.
-/
import proofs.«146991_j9397388444288_2_alg».proof.Proof.Gen.KernelIdeal.Launch
import proofs.«146991_j9397388444288_2_alg».proof.Proof.Gen.KernelIdeal.Skeleton
import proofs.«146991_j9397388444288_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents the region is entered with: a parameter here, fixed by the run
variable (V : (c : Dev nD) → (b : Ref sig .tc) → Buf (Elt F) ((c : Thread nD τ).loc b))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block is in its staging buffer at every point: it is fetched at every point. -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The whole array is in its staging buffer at every point: fetched at the first, and its block never moves. -/
theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

/-- The whole row block, -/
abbrev rq : Rect S1024x256 := Rect.unit (s := S1024x256) ![0, 0] S1024x256.size inb_S1024x256_S1024x256_0_0
/-- the eight pieces of 1024 rows of the whole array, -/
abbrev rk0 : Rect S8192x256 := Rect.unit (s := S8192x256) ![0, 0] S1024x256.size (by decide)
abbrev rk1 : Rect S8192x256 := Rect.unit (s := S8192x256) ![1024, 0] S1024x256.size (by decide)
abbrev rk2 : Rect S8192x256 := Rect.unit (s := S8192x256) ![2048, 0] S1024x256.size (by decide)
abbrev rk3 : Rect S8192x256 := Rect.unit (s := S8192x256) ![3072, 0] S1024x256.size (by decide)
abbrev rk4 : Rect S8192x256 := Rect.unit (s := S8192x256) ![4096, 0] S1024x256.size (by decide)
abbrev rk5 : Rect S8192x256 := Rect.unit (s := S8192x256) ![5120, 0] S1024x256.size (by decide)
abbrev rk6 : Rect S8192x256 := Rect.unit (s := S8192x256) ![6144, 0] S1024x256.size (by decide)
abbrev rk7 : Rect S8192x256 := Rect.unit (s := S8192x256) ![7168, 0] S1024x256.size (by decide)
/-- the whole output block. -/
abbrev ro : Rect S1024x1 := Rect.unit (s := S1024x1) ![0, 0] S1024x1.size inb_S1024x1_S1024x1_0_0

/-! ## What the body leaves in the output block -/

/-- The column of 1024 numbers the body computes from its row block `x0` and the whole array `x1`: the running sum over
    the first two pieces, then the next four, then the last two, less the diagonal term (the payloads are the printed
    arithmetic, named by the generated skeleton). -/
def colOf (x0 : Vec F S1024x256 .bf16) (x1 : Vec F S8192x256 .bf16) : FVec F S1024x1 .f32 :=
  k0_pay1 (k0_pay2 (View.ld x0 rq)) (k0_pay3 (View.ld x0 rq))
    (k0_pay7 (k0_pay2 (View.ld x0 rq)) (k0_pay4 (View.ld x0 rq) (View.ld x1 rk0) (View.ld x1 rk1)) (k0_pay5 (View.ld x0 rq) (View.ld x1 rk2))
      (k0_pay6 (F := F)) (View.ld x1 rk3) (View.ld x1 rk4) (View.ld x1 rk5))
    (View.ld x1 rk6) (View.ld x1 rk7)

/-- The output block's staging buffer after the body: its one store, of the whole block. -/
def out2 (x0 : Vec F S1024x256 .bf16) (x1 : Vec F S8192x256 .bf16) : Vec F S1024x1 .f32 :=
  View.canon [⟨ro, colOf x0 x1⟩]

/-- The store covers the block. -/
theorem cover2 (p0 : Vec F S1024x1 .f32) (y : S1024x1.Idx) :
    ∃ pc ∈ ([⟨ro, p0⟩] : List (View.Piece (Elt F) S1024x1 .f32)), y ∈ pc.1.set :=
  View.cover_of_tiled [⟨ro, p0⟩] S1024x1.size (by rfl) y

/-! ## The body's triple -/

set_option maxHeartbeats 4000000 in
/-- The body, on whole staging buffers holding `x0`, `x1` and anything, runs to the end leaving the two inputs as they were and
    the output block at `out2 x0 x1`. -/
theorem sound_kernel (c : Dev nD) (E : Set ℕ) (i : grid0.Coords) (arg1 : Memref sig .tc .vmem S1024x256 .bf16) (harg1 : arg1.IsWhole)
    (arg2 : Memref sig .tc .vmem S8192x256 .bf16) (harg2 : arg2.IsWhole) (arg3 : Memref sig .tc .vmem S1024x1 .f32) (harg3 : arg3.IsWhole)
    (x0 : Vec F S1024x256 .bf16) (x1 : Vec F S8192x256 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2 x0 x1)) -∗ K ⟨⟩))
      ⊢ wp frame (wpE (defs₀ (F := F)) Variants.none c none) E (cc0__denom_kernel i arg1 harg1 arg2 harg2 arg3 harg3) K := by
  simp only [cc0__denom_kernel_eq_skeleton]; unfold cc0__denom_kernel_skel
  simp only [k0_part1_eq_skeleton, k0_part2_eq_skeleton]; unfold k0_part1_skel k0_part2_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover2 _)

/-! ## The proof data -/

/-- What each window's staging buffer holds after the body at point `t`: the inputs their blocks, the output `out2` of them.
    The one array behind windows 0 and 1 is held half and half. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => out2 (iblk V c 0 t) (iblk V c 1 t)
  Φ _ := Pipeline.ΦA spec0 c
  q w := match w with
    | ⟨0, _⟩ => fullShare.left
    | ⟨1, _⟩ => fullShare.right
    | ⟨2, _⟩ => fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = out2 (iblk V c 0 t) (iblk V c 1 t) := by dsimp only [dat]

theorem before_0 (c : Dev nD) (t : Fin cfg0.N) (d) : (dat V c).before 0 t d = iblk V c 0 t :=
  before0_of V (dat V c) (A_eq V c 0) (after_0 V c) t d
theorem before_1 (c : Dev nD) (t : Fin cfg0.N) (d) : (dat V c).before 1 t d = iblk V c 1 t :=
  before1_of V (dat V c) (A_eq V c 1) (after_1 V c) t d

/-! ## The body obligation, at a generic point -/

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- The body at any point: the input buffers hold their blocks, so the triple applies; the invariant and what the core owes pass
    through untouched. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dat (F := F) V c) (defs₀ (F := F)) Variants.none () Set.univ := fun t => by
  rw [bigSep_W0, bigSep_W0]
  exact sound_body V c t

end Cert.KernelIdeal.Body

end
-- ==== Proof.IdealRun.lean ====
/-
  The whole program run: the host operations before the region, the region at its eight grid points, the host operations
  after it — every weakly fair execution ends, nothing faults, and every buffer the host sees ends at a named value.

  The contents of the buffers are followed through the three stretches: `W1` after the first host stretch (what the
  region finds), `W2` after the region (only the output column has changed: it holds what the eight write-backs left),
  `W3` after the last host stretch (what the program returns).

  The region reads one array through two windows. At its entry the permission to that array is cut in two halves, one per
  window; at its exit the halves — both still at the contents the region found, since an input array is never written — are
  joined again.
-/
import proofs.«146991_j9397388444288_2_alg».proof.Proof.IdealBody

set_option maxRecDepth 16384

noncomputable section

namespace Cert.KernelIdeal.Run

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the first host stretch: what the region finds. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the region: the output column at what the write-backs left, every other buffer as the region found it. -/
def W2 (c : Dev nD) : Valuation τ sig (Elt F) := fun b =>
  if h : Proc.devRef .tc (Pipeline.arrRef spec0 2) = b then
    cast (congrArg (fun b' : DevRef τ sig => b'.ty.Contents (Elt F)) h) ((dat (V1 m ρ) c).arrAt 2 cfg0.N)
  else W1 m ρ c b
abbrev V2 : (c : Dev nD) → (b : Ref sig .tc) → Buf (Elt F) ((c : Thread nD τ).loc b) := fun c b => W2 m ρ c b

theorem W2_out (c : Dev nD) : W2 m ρ c (Proc.devRef .tc (Pipeline.arrRef spec0 2)) = (dat (V1 m ρ) c).arrAt 2 cfg0.N := by
  unfold W2; rw [dif_pos rfl]; rfl
theorem W2_of_ne (c : Dev nD) (b : Ref sig .tc) (hb : Pipeline.arrRef spec0 2 ≠ b) :
    W2 m ρ c (Proc.devRef .tc b) = W1 m ρ c (Proc.devRef .tc b) := by
  unfold W2; rw [dif_neg]; intro e; exact hb (Proc.devRef_injective _ e)

/-- After the last host stretch: what the program returns. -/
abbrev W3 : Dev nD → Valuation τ sig (Elt F) := fun c => StableHlo.after hostOps1 (W2 m ρ c)

/-! ## The one array behind two windows: cut at the entry, joined at the exit -/

/-- The windows' arrays are two buffers: the stacked array (windows 0 and 1) and the output column (window 2). -/
theorem arrs_eq : Finset.univ.image (Pipeline.arrRef spec0) = ({main_v18, main_v19} : Finset (Ref sig .tc)) := by decide

/-- ENTRY: the two buffers, each whole at the full permission at the contents `V`, are the region's arrays at their entry
    contents — the stacked array's permission cut into its two halves, one for each window that reads it. -/
theorem entry_split (V : (c : Dev nD) → (b : Ref sig .tc) → Buf (Elt F) ((c : Thread nD τ).loc b)) (c : Dev nD) :
    (Pipeline.arrBufs (Ix := Unit) (Name := ℕ) (U := UR sig nD τ) (Lvl := ℕ) spec0 c (V c) : sProp 𝕄)
      ⊢ (dat V c).arrays ((dat V c).arrAt · 0) := by
  unfold Pipeline.arrBufs Dat.arrays
  rw [arrs_eq, bigSep_insert (by decide), bigSep_singleton, bigSep_W0]
  rw [(arr_whole0 0).set_eq_univ, (arr_whole0 2).set_eq_univ]
  show iprop(((c : Thread nD τ).loc main_v18 ↦{fullShare} V c main_v18) ∗ ((c : Thread nD τ).loc main_v19 ↦{fullShare} V c main_v19))
    ⊢ iprop(((c : Thread nD τ).loc main_v18 ↦{fullShare.left} V c main_v18) ∗ ((c : Thread nD τ).loc main_v18 ↦{fullShare.right} V c main_v18)
        ∗ ((c : Thread nD τ).loc main_v19 ↦{fullShare} V c main_v19))
  have hcut : ((c : Thread nD τ).loc main_v18 ↦{fullShare} V c main_v18 : sProp 𝕄)
      ⊢ iprop(((c : Thread nD τ).loc main_v18 ↦{fullShare.left} V c main_v18) ∗ ((c : Thread nD τ).loc main_v18 ↦{fullShare.right} V c main_v18)) :=
    (pointsTo_share (PosShare.mem_left_op_right fullShare)).1
  iintro ⟨H18, H19⟩
  ihave H := hcut $$ H18
  icases H with ⟨Hl, Hr⟩
  isplitl [Hl]; · iexact Hl
  isplitl [Hr]; · iexact Hr
  iexact H19

/-- EXIT: the region's arrays at their final contents — the stacked array's two halves, both still at the contents the region
    found, and the output column at what the write-backs left — together with every other buffer as the region found it, are
    all the buffers at `V2`. -/
theorem exit_join (c : Dev nD) :
    iprop((dat (V1 m ρ) c).arrays ((dat (V1 m ρ) c).arrAt · cfg0.N)
        ∗ Pipeline.unscopedRest (Ix := Unit) (Name := ℕ) (U := UR sig nD τ) (Lvl := ℕ) spec0 c (V1 m ρ c))
      ⊢ (unscopedBufs c (V2 m ρ c) : sProp 𝕄) := by
  rw [Pipeline.unscopedBufs_split₀ cfgs 0 winFacts₀0.arr_unscoped c (V2 m ρ c)]
  refine sep_mono ?_ (Entails.of_eq ?_)
  · unfold Pipeline.arrBufs Dat.arrays
    rw [arrs_eq, bigSep_insert (by decide), bigSep_singleton, bigSep_W0]
    rw [(arr_whole0 0).set_eq_univ, (arr_whole0 2).set_eq_univ]
    have h0 : (dat (V1 m ρ) c).arrAt 0 cfg0.N = V1 m ρ c main_v18 := ((dat (V1 m ρ) c).arrAt_in 0 rfl _).trans (A_eq (V1 m ρ) c 0)
    have h1 : (dat (V1 m ρ) c).arrAt 1 cfg0.N = V1 m ρ c main_v18 := ((dat (V1 m ρ) c).arrAt_in 1 rfl _).trans (A_eq (V1 m ρ) c 1)
    have e18 : V2 m ρ c main_v18 = V1 m ρ c main_v18 := W2_of_ne m ρ c main_v18 (by decide)
    have e19 : V2 m ρ c main_v19 = (dat (V1 m ρ) c).arrAt 2 cfg0.N := W2_out m ρ c
    show iprop(((c : Thread nD τ).loc main_v18 ↦{fullShare.left} (dat (V1 m ρ) c).arrAt 0 cfg0.N)
        ∗ ((c : Thread nD τ).loc main_v18 ↦{fullShare.right} (dat (V1 m ρ) c).arrAt 1 cfg0.N)
        ∗ ((c : Thread nD τ).loc main_v19 ↦{fullShare} (dat (V1 m ρ) c).arrAt 2 cfg0.N))
      ⊢ iprop(((c : Thread nD τ).loc main_v18 ↦{fullShare} V2 m ρ c main_v18) ∗ ((c : Thread nD τ).loc main_v19 ↦{fullShare} V2 m ρ c main_v19))
    rw [h0, h1, e18, e19]
    have hjoin : iprop(((c : Thread nD τ).loc main_v18 ↦{fullShare.left} V1 m ρ c main_v18) ∗ ((c : Thread nD τ).loc main_v18 ↦{fullShare.right} V1 m ρ c main_v18))
        ⊢ ((c : Thread nD τ).loc main_v18 ↦{fullShare} V1 m ρ c main_v18 : sProp 𝕄) :=
      (pointsTo_share (PosShare.mem_left_op_right fullShare)).2
    iintro ⟨Hl, Hr, H19⟩
    isplitl [Hl Hr]
    · iapply hjoin; isplitl [Hl] <;> iassumption
    iexact H19
  · unfold Pipeline.unscopedRest
    exact bigSep_congr fun b hb => by
      rw [show V2 m ρ c b = V1 m ρ c b from W2_of_ne m ρ c b fun e =>
        (Finset.mem_sdiff.mp hb).2 (Finset.mem_image.mpr ⟨2, Finset.mem_univ _, e⟩)]

/-! ## The proof data family and the thread state -/

/-- No prefetched tables. -/
abbrev adm : (p : Fin 1) → (pcfgs (F := F) p).Adm := fun p => (cfgs p).toPCfg_adm
/-- The one pipeline's proof data, at the contents the region finds. -/
def pdats : (p : Fin 1) → (c : Dev nD) → Dat τ (Elt F) Unit ℕ (UR sig nD τ) ℕ (Pipeline.pin (pcfgs (F := F)) adm p) c
  | ⟨0, _⟩ => fun c => dat (V1 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every stretch: the generator register at some state, and nothing owed. -/
abbrev R (c : Dev nD) : sProp 𝕄 := iprop((∃ r, prngReg c r) ∗ ∃ W, owes (c : Thread nD τ) (0 : CellTallies nD τ sig Unit) W)
/-- A host stretch as a segment over every buffer the host sees. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
/-- A buffer the host sees is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every buffer at the contents after the last stretch, the generator register at some state. -/
abbrev Tₙ (c : Dev nD) : sProp 𝕄 := iprop(StableHlo.held (c : Thread nD τ) (Pipeline.ucRefs τ sig) (W3 m ρ c) ∗ ∃ r, prngReg c r)

/-! ## The region as a segment -/

set_option backward.isDefEq.respectTransparency.types false in
/-- The region: entered from every buffer at `W1`, left at `W2`. Its two arrays are taken out of the buffers, the shared one cut in
    halves (`entry_split`), and put back joined (`exit_join`); the generator register goes into the invariant and comes back. -/
def reg : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit : (unscopedBufs c (V1 m ρ c) : sProp 𝕄)
        ⊢ iprop((dat (V1 m ρ) c).arrays ((dat (V1 m ρ) c).arrAt · 0)
          ∗ Pipeline.unscopedRest (Ix := Unit) (Name := ℕ) (U := UR sig nD τ) (Lvl := ℕ) spec0 c (V1 m ρ c)) := by
      rw [Pipeline.unscopedBufs_split₀ cfgs 0 winFacts₀0.arr_unscoped c (V1 m ρ c)]
      exact sep_mono (entry_split (V1 m ρ) c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit_join m ρ c
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## The program as three segments, and its run -/

abbrev segs : List (Pipeline.Seg (pcfgs (F := F)) adm (pdats m ρ) () defs₀ 𝒱₀ L lv) :=
  [ .host (hseg hostOps0 hostOps0_sub hostOps0_fresh (W0 m ρ)),
    .region (reg m ρ),
    .host (hseg hostOps1 hostOps1_sub hostOps1_fresh (W2 m ρ)) ]
theorem main_run (c : Dev nD) : main (F := F) c = Pipeline.Seg.run (segs m ρ) := (main_chain c).trans (by chain_rfl)

set_option backward.isDefEq.respectTransparency.types false in
/-- THE RUN: from any memory with zero counters, every weakly fair execution of the program ends, nothing faulting, with
    every buffer the host sees at its `W3` contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show iprop(StableHlo.held (c : Thread nD τ) (Pipeline.ucRefs τ sig) (W3 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-! ## The arguments end as launched

No host operation writes an argument and the region writes only its output column, so the contents of an argument's buffer
walk back through the three stretches to the launch memory. -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- THE FRAME: every weakly fair execution ends, nothing faulting, with both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W3_main_arg0 m ρ c),
     (h c _ (mem_uc main_arg1 (by decide))).trans (W3_main_arg1 m ρ c)⟩) (run_main m ρ)

end Cert.KernelIdeal.Run

end
-- ==== Proof.Spec.lean ====
/-
  The mathematics both programs compute, written once over the extended reals, with every index a literal `Fin`.

  Two arrays `a b : 4096 × 256` (the rows of the two inputs after normalisation) are stacked into `z : 8192 × 256`
  (`stack`). The similarity of rows `r` and `c` is their dot product (`sim`). For each row `r` the loss needs
    • the positive pair's similarity: row `r` of one half against the same row of the other half, and
    • the sum over every OTHER row `c ≠ r` of `exp (2 · sim r c)`.
  The kernel gets the second quantity as the sum over ALL rows, accumulated in eight runs of 1024 columns, minus the
  diagonal term `exp (2 · Σ_d z r d ²)` (`denomK`); the reference multiplies every term by `1 - [r = c]` and sums once,
  dividing by one half where the kernel multiplies by two (`denomR`). The positive pair is a row sum of a product of the
  two halves in the kernel (`posK`) and an entry of the similarity matrix off the diagonal by 4096 in the reference
  (`posR`). Proof/Law.lean proves the two forms equal.
-/
import Idealize.ShloMosaic.PureOps.Ideal
import Idealize.ShloMosaic.PureOps.Ideal.Laws

noncomputable section

namespace Cert.Spec

open Idealize.ShloMosaic

/-- The float literals the two programs use, as the extended reals their words denote. -/
abbrev zero : EReal := Ideal.ofBits .f32 0x00000000#32
abbrev one : EReal := Ideal.ofBits .f32 0x3F800000#32
abbrev two : EReal := Ideal.ofBits .f32 0x40000000#32
abbrev half : EReal := Ideal.ofBits .f32 0x3F000000#32

/-- The two halves stacked along the rows: row `r` is row `r` of `a` below 4096 and row `r - 4096` of `b` from there on. -/
def stack (a b : Fin 4096 → Fin 256 → EReal) (r : Fin 8192) (d : Fin 256) : EReal :=
  if h : r.val < 4096 then a ⟨r.val, h⟩ d else b ⟨r.val - 4096, by have := r.isLt; omega⟩ d

/-- The dot product of rows `r` and `c`. -/
def sim (z : Fin 8192 → Fin 256 → EReal) (r c : Fin 8192) : EReal := ∑ d : Fin 256, z r d * z c d

/-- Column `e` of the `k`-th run of 1024 columns. -/
def col (k : Fin 8) (e : Fin 1024) : Fin 8192 := ⟨k.val * 1024 + e.val, by have := k.isLt; have := e.isLt; omega⟩

/-- The kernel's sum over one run of 1024 columns, from a zero start. -/
def runSum (z : Fin 8192 → Fin 256 → EReal) (r : Fin 8192) (k : Fin 8) : EReal :=
  zero + ∑ e : Fin 1024, Ideal.exp (sim z r (col k e) * two)

/-- The kernel's diagonal term: the row's own squared length, summed from a zero start, doubled, exponentiated. -/
def selfTerm (z : Fin 8192 → Fin 256 → EReal) (r : Fin 8192) : EReal :=
  Ideal.exp ((zero + ∑ d : Fin 256, z r d * z r d) * two)

/-- The kernel's denominator of row `r`: the eight runs added left to right onto zero, less the diagonal term. -/
def denomK (z : Fin 8192 → Fin 256 → EReal) (r : Fin 8192) : EReal :=
  ((((((((zero + runSum z r 0) + runSum z r 1) + runSum z r 2) + runSum z r 3) + runSum z r 4) + runSum z r 5)
      + runSum z r 6) + runSum z r 7) - selfTerm z r

/-- The reference's mask entry: one less the indicator of the diagonal. -/
def mask (r c : Fin 8192) : EReal := one - (if r = c then (1 : EReal) else 0)

/-- The reference's denominator of row `r`: one sum over all columns of the masked exponentials, from a zero start. -/
def denomR (z : Fin 8192 → Fin 256 → EReal) (r : Fin 8192) : EReal :=
  zero + ∑ c : Fin 8192, mask r c * Ideal.exp (Ideal.div (sim z r c) half)

/-- Row `r` of either half: `r` below 4096, `r - 4096` from there on. -/
def halfRow (r : Fin 8192) : Fin 4096 :=
  if h : r.val < 4096 then ⟨r.val, h⟩ else ⟨r.val - 4096, by have := r.isLt; omega⟩

/-- The kernel's positive-pair similarity of row `r`: the row sum of the product of the two halves, from a zero start. -/
def posK (a b : Fin 4096 → Fin 256 → EReal) (r : Fin 8192) : EReal :=
  zero + ∑ d : Fin 256, a (halfRow r) d * b (halfRow r) d

/-- The row 4096 away from `r`, cyclically. -/
def partner (r : Fin 8192) : Fin 8192 :=
  if h : r.val < 4096 then ⟨r.val + 4096, by omega⟩ else ⟨r.val - 4096, by have := r.isLt; omega⟩

/-- The reference's positive-pair similarity of row `r`: the similarity matrix's entry at `(r, partner r)`. -/
def posR (a b : Fin 4096 → Fin 256 → EReal) (r : Fin 8192) : EReal := sim (stack a b) r (partner r)

end Cert.Spec

end
-- ==== Proof.LibRowOps.lean ====
/-
  Two reductions of matrices read at an index, on the extended reals.

  * The sum of an `[a, b]` array along its second axis, read at entry `p`, is the sum over `k` of the array's
    entries `(p, k)`: the sum of row `p`.
  * The product of an `[m, k]` matrix with a `[k, n]` matrix, added into a zero accumulator, read at `(p, c)`, is the
    sum over `x` of the left matrix at `(p, x)` times the right matrix at `(x, c)`.  The dimension numbers enter only
    through the four facts that say which operand coordinate is the row, the column and the contracted one.
-/
import Idealize.ShloMosaic.Lib.Pipeline.Value
import Idealize.ShloMosaic.Lib.ValueIdx
import Idealize.ShloMosaic.PureOps.Ideal.Laws

noncomputable section

namespace Cert.LibRowOps

open Idealize.ShloMosaic Idealize.ShloMosaic.ValueIdx

/-- A sum along the second axis of an `[a, b]` array, read at entry `p`: the sum of row `p`. -/
theorem rowSum_apply {a b : ℕ} (src : FVec Ideal ⟨2, ![a, b]⟩ .f32)
    (h : (⟨2, ![a, b]⟩ : Shape).Reduces [(1 : Fin 2)] ⟨1, ![a]⟩) (hφ : FKind.Formats .f32)
    (hacc : (0x00000000#32 : BitVec 32) = FKind.add.neutral .f32 hφ) (p : Fin a) :
    multiReduction .add [(1 : Fin 2)] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (funext fun c => Fin.ext (by
      match c with
      | ⟨0, _⟩ => rfl
      | ⟨1, _⟩ => rfl)))

/-- A matrix product into a zero accumulator, read at `(p, c)`: the sum over the contracted coordinate `x` of the left
    operand at `(p, x)` times the right operand at `(x, c)`. -/
theorem matmul_zero_apply {m k n : ℕ} {φ₁ φ₂ : FTy}
    (d : DotDims ⟨2, ![m, k]⟩ ⟨2, ![k, n]⟩ ⟨2, ![m, n]⟩) (prec : Option ContractPrecision)
    (lhs : FVec Ideal ⟨2, ![m, k]⟩ φ₁) (rhs : FVec Ideal ⟨2, ![k, n]⟩ φ₂)
    (hr : d.contr.rank = 1) (hs : d.contr.size ⟨0, by omega⟩ = k)
    (hl0 : ∀ (j : (⟨2, ![m, n]⟩ : Shape).Idx) (q : d.contr.Idx), (d.lhsIdx j q 0).val = (j 0).val)
    (hl1 : ∀ (j : (⟨2, ![m, n]⟩ : Shape).Idx) (q : d.contr.Idx), (d.lhsIdx j q 1).val = (q ⟨0, by omega⟩).val)
    (hr0 : ∀ (j : (⟨2, ![m, n]⟩ : Shape).Idx) (q : d.contr.Idx), (d.rhsIdx j q 0).val = (q ⟨0, by omega⟩).val)
    (hr1 : ∀ (j : (⟨2, ![m, n]⟩ : Shape).Idx) (q : d.contr.Idx), (d.rhsIdx j q 1).val = (j 1).val)
    (p : Fin m) (c : Fin n) :
    FloatOps.matmul d prec lhs rhs (constant ⟨2, ![m, n]⟩ .f32 0x00000000#32) (ix2 p c)
      = ∑ x : Fin k, lhs (ix2 p x) * rhs (ix2 x c) := by
  rw [Ideal.matmul_constant_zero_apply, ← Equiv.sum_comp (contrEquiv1 d k hr hs).symm]
  refine Finset.sum_congr rfl fun x _ => ?_
  have hk := contrEquiv1_symm_val d k hr hs x
  have el : d.lhsIdx (ix2 p c) ((contrEquiv1 d k hr hs).symm x) = ix2 p x := funext fun a => Fin.ext (by
    match a with
    | ⟨0, _⟩ => exact hl0 _ _
    | ⟨1, _⟩ => exact (hl1 _ _).trans hk)
  have er : d.rhsIdx (ix2 p c) ((contrEquiv1 d k hr hs).symm x) = ix2 x c := funext fun a => Fin.ext (by
    match a with
    | ⟨0, _⟩ => exact (hr0 _ _).trans hk
    | ⟨1, _⟩ => exact hr1 _ _)
  rw [el, er]

end Cert.LibRowOps

end
-- ==== Proof.LibUnitColumn.lean ====
/-
  A vector cast to a column, read at an index: an `[a]` array cast to `[a, 1]` reads, at `(i, u)`, the vector's
  entry `i`, whatever the unit coordinate `u`.
-/
import Idealize.ShloMosaic.Lib.Pipeline.Value
import Idealize.ShloMosaic.Lib.ValueIdx

namespace Cert.LibUnitColumn

open Idealize.ShloMosaic Idealize.ShloMosaic.ValueIdx

variable {α : Type}

/-- An `[a]` array cast to `[a, 1]` reads, at `(i, u)`, the operand at `i`: both indices have the row-major
    position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.LibUnitColumn
-- ==== Proof.Law.lean ====
/-
  The two forms of the loss's per-row quantities are equal over the extended reals.

  Positive pair. Row `r` of the stacked array is row `r` of the first half below 4096 and row `r - 4096` of the
  second half from there on, and the row 4096 away (cyclically) is the same-numbered row of the other half. So the
  similarity of a row and its partner is the row sum of the product of the two halves; in the upper half the two
  factors appear in the other order, and the product of extended reals commutes. Adding onto the zero word changes
  nothing. No finiteness is needed.

  Denominator. When every entry is a real, every similarity is a real and every exponential a real exponential, so
  both denominators are real sums read in the extended reals. The eight runs of 1024 columns tile the 8192 columns
  (`(k, e) ↦ 1024 k + e` is a bijection), so adding the runs left to right is summing over all columns; the kernel's
  diagonal term is the exponential at `c = r`; and in the reals `(Σ_c f c) - f r = Σ_c (1 - [r = c]) · f c`. The
  reference divides by the word of one half where the kernel multiplies by the word of two: division by a nonzero
  real is multiplication by its reciprocal, and `1 / (1/2) = 2`. Finiteness is needed here: were the diagonal term infinite, the
  kernel's `⊤ - ⊤` would be `⊥`, while the masked sum of nonnegative terms is not.
-/
import proofs.«146991_j9397388444288_2_alg».proof.Proof.Spec
import Idealize.ShloMosaic.PureOps.Ideal
import Idealize.ShloMosaic.PureOps.Ideal.Laws

noncomputable section

namespace Cert.Law

open Idealize.ShloMosaic Cert.Spec

/-! ### The four float words

Each is stated twice: on the word itself, and on the name the specification gives it. -/

/-- The word of `0.0` denotes the real zero. -/
theorem word_zero : Ideal.ofBits .f32 0x00000000#32 = (0 : EReal) := by
  simp [Ideal.ofBits, Ideal.ieee]

/-- The word of `1.0` denotes the real one. -/
theorem word_one : Ideal.ofBits .f32 0x3F800000#32 = (1 : EReal) := by
  simp [Ideal.ofBits, Ideal.ieee, -EReal.coe_mul]; norm_num

/-- The word of `2.0` denotes the real two. -/
theorem word_two : Ideal.ofBits .f32 0x40000000#32 = ((2 : ℝ) : EReal) := by
  simp [Ideal.ofBits, Ideal.ieee, -EReal.coe_mul]; norm_num

/-- The word of `0.5` denotes the real one half. -/
theorem word_half : Ideal.ofBits .f32 0x3F000000#32 = ((1 / 2 : ℝ) : EReal) := by
  simp [Ideal.ofBits, Ideal.ieee, -EReal.coe_mul]; norm_num

theorem zero_eq : Spec.zero = 0 := word_zero

theorem one_eq : Spec.one = 1 := word_one

theorem two_eq : Spec.two = ((2 : ℝ) : EReal) := word_two

theorem half_eq : Spec.half = ((1 / 2 : ℝ) : EReal) := word_half

/-! ### The positive pair -/

/-- Below 4096 the stacked array's row is the first half's row of the same number. -/
theorem stack_lo (a b : Fin 4096 → Fin 256 → EReal) (r : Fin 8192) (h : r.val < 4096) (d : Fin 256) :
    stack a b r d = a (halfRow r) d := by
  simp only [stack, halfRow, dif_pos h]

/-- From 4096 on the stacked array's row is the second half's row, 4096 lower. -/
theorem stack_hi (a b : Fin 4096 → Fin 256 → EReal) (r : Fin 8192) (h : ¬ r.val < 4096) (d : Fin 256) :
    stack a b r d = b (halfRow r) d := by
  simp only [stack, halfRow, dif_neg h]

/-- The partner of a row below 4096 lies from 4096 on. -/
theorem partner_lo_val (r : Fin 8192) (h : r.val < 4096) : ¬ (partner r).val < 4096 := by
  simp only [partner, dif_pos h]; omega

/-- The partner of a row from 4096 on lies below 4096. -/
theorem partner_hi_val (r : Fin 8192) (h : ¬ r.val < 4096) : (partner r).val < 4096 := by
  have := r.isLt
  simp only [partner, dif_neg h]; omega

/-- A row and its partner sit at the same place of their halves. -/
theorem halfRow_partner (r : Fin 8192) : halfRow (partner r) = halfRow r := by
  have := r.isLt
  by_cases h : r.val < 4096
  · have hp := partner_lo_val r h
    apply Fin.ext
    simp only [halfRow, dif_pos h, dif_neg hp]
    simp only [partner, dif_pos h]
    omega
  · have hp := partner_hi_val r h
    apply Fin.ext
    simp only [halfRow, dif_neg h, dif_pos hp]
    simp only [partner, dif_neg h]

/-- The row sum of the product of the two halves, started from zero, is the similarity of a row of the stacked array
    and the row 4096 away: in the lower half the factors already stand in this order, in the upper half they are
    swapped and the product commutes. -/
theorem posK_eq_posR (a b : Fin 4096 → Fin 256 → EReal) (r : Fin 8192) : posK a b r = posR a b r := by
  unfold posK posR sim
  rw [zero_eq, zero_add]
  refine Finset.sum_congr rfl (fun d _ => ?_)
  by_cases h : r.val < 4096
  · rw [stack_lo a b r h d, stack_hi a b (partner r) (partner_lo_val r h) d, halfRow_partner]
  · rw [stack_hi a b r h d, stack_lo a b (partner r) (partner_hi_val r h) d, halfRow_partner, mul_comm]

/-! ### The denominator -/

/-- A finite sum of reals, read in the extended reals, is the sum of the terms read there. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The eight runs of 1024 columns tile the 8192 columns: run `k`, place `e` is column `1024 k + e`, once each. -/
theorem col_bijective : Function.Bijective (fun p : Fin 8 × Fin 1024 => col p.1 p.2) := by
  rw [Fintype.bijective_iff_injective_and_card]
  refine ⟨?_, by simp⟩
  rintro ⟨k, e⟩ ⟨k', e'⟩ h
  have hv := congrArg Fin.val h
  simp only [col] at hv
  have := e.isLt
  have := e'.isLt
  have hk : k.val = k'.val := by omega
  have he : e.val = e'.val := by omega
  exact Prod.ext (Fin.ext hk) (Fin.ext he)

/-- Summing run by run is summing over all columns. -/
theorem sum_runs (f : Fin 8192 → ℝ) : ∑ k : Fin 8, ∑ e : Fin 1024, f (col k e) = ∑ c : Fin 8192, f c := by
  rw [← Fintype.sum_prod_type' (fun k e => f (col k e))]
  exact Fintype.sum_bijective _ col_bijective _ _ (fun _ => rfl)

/-- Leaving the diagonal term out of a sum is weighting every term by one less the diagonal's indicator. -/
theorem sum_sub_diag (f : Fin 8192 → ℝ) (r : Fin 8192) :
    (∑ c : Fin 8192, f c) - f r = ∑ c : Fin 8192, (if r = c then (0 : ℝ) else 1) * f c := by
  have h : ∀ c : Fin 8192, (if r = c then (0 : ℝ) else 1) * f c = f c - (if r = c then f c else 0) := by
    intro c
    split_ifs <;> ring
  simp only [h]
  rw [Finset.sum_sub_distrib, Finset.sum_ite_eq]
  simp

/-- The similarity of two rows of a real matrix. -/
def simR (x : Fin 8192 → Fin 256 → ℝ) (r c : Fin 8192) : ℝ := ∑ d : Fin 256, x r d * x c d

/-- The exponential of twice the similarity. -/
def expR (x : Fin 8192 → Fin 256 → ℝ) (r c : Fin 8192) : ℝ := Real.exp (simR x r c * 2)

/-- On a real matrix the similarity is the real dot product. -/
theorem sim_coe (x : Fin 8192 → Fin 256 → ℝ) (r c : Fin 8192) :
    sim (fun r d => (x r d : EReal)) r c = (simR x r c : EReal) := by
  unfold sim simR
  rw [coe_sum]
  exact Finset.sum_congr rfl (fun d _ => (EReal.coe_mul _ _).symm)

/-- The kernel's term: the exponential of the similarity times the word of two. -/
theorem exp_mul_two (x : Fin 8192 → Fin 256 → ℝ) (r c : Fin 8192) :
    Ideal.exp (sim (fun r d => (x r d : EReal)) r c * two) = (expR x r c : EReal) := by
  rw [sim_coe, two_eq, ← EReal.coe_mul, Ideal.exp_coe]
  rfl

/-- The reference's term: the exponential of the similarity divided by the word of one half. -/
theorem exp_div_half (x : Fin 8192 → Fin 256 → ℝ) (r c : Fin 8192) :
    Ideal.exp (Ideal.div (sim (fun r d => (x r d : EReal)) r c) half) = (expR x r c : EReal) := by
  rw [sim_coe, half_eq, Ideal.div_coe (by norm_num), ← EReal.coe_mul, Ideal.exp_coe]
  unfold expR
  norm_num

/-- The mask is the real `0` on the diagonal and the real `1` off it. -/
theorem mask_coe (r c : Fin 8192) : mask r c = ((if r = c then (0 : ℝ) else 1 : ℝ) : EReal) := by
  unfold mask
  rw [one_eq]
  split_ifs
  · rw [← EReal.coe_one, ← EReal.coe_sub, sub_self]
  · rw [sub_zero, EReal.coe_one]

/-- One run of the kernel's sum is a real. -/
theorem runSum_coe (x : Fin 8192 → Fin 256 → ℝ) (r : Fin 8192) (k : Fin 8) :
    runSum (fun r d => (x r d : EReal)) r k = ((∑ e : Fin 1024, expR x r (col k e) : ℝ) : EReal) := by
  unfold runSum
  rw [zero_eq, zero_add, coe_sum]
  exact Finset.sum_congr rfl (fun e _ => exp_mul_two x r (col k e))

/-- The kernel's diagonal term is the diagonal exponential. -/
theorem selfTerm_coe (x : Fin 8192 → Fin 256 → ℝ) (r : Fin 8192) :
    selfTerm (fun r d => (x r d : EReal)) r = (expR x r r : EReal) := by
  unfold selfTerm
  rw [zero_eq, zero_add]
  exact exp_mul_two x r r

/-- The kernel's denominator on a real matrix: the full sum less the diagonal term, in the reals. -/
theorem denomK_coe (x : Fin 8192 → Fin 256 → ℝ) (r : Fin 8192) :
    denomK (fun r d => (x r d : EReal)) r = (((∑ c : Fin 8192, expR x r c) - expR x r r : ℝ) : EReal) := by
  unfold denomK
  simp only [runSum_coe, selfTerm_coe, zero_eq, zero_add, ← EReal.coe_add, ← EReal.coe_sub]
  rw [← sum_runs (fun c => expR x r c), Fin.sum_univ_eight]

/-- The reference's denominator on a real matrix: the masked sum, in the reals. -/
theorem denomR_coe (x : Fin 8192 → Fin 256 → ℝ) (r : Fin 8192) :
    denomR (fun r d => (x r d : EReal)) r
      = ((∑ c : Fin 8192, (if r = c then (0 : ℝ) else 1) * expR x r c : ℝ) : EReal) := by
  unfold denomR
  rw [zero_eq, zero_add, coe_sum]
  refine Finset.sum_congr rfl (fun c _ => ?_)
  rw [mask_coe, exp_div_half, EReal.coe_mul]

/-- On a matrix of finite entries the two denominators agree: every term is a real exponential, the eight runs add
    up to the one sum over all columns, and taking the diagonal term away is masking it out. -/
theorem denomK_eq_denomR (z : Fin 8192 → Fin 256 → EReal) (hz : ∀ r d, ∃ x : ℝ, z r d = (x : EReal))
    (r : Fin 8192) : denomK z r = denomR z r := by
  choose x hx using hz
  have hzx : z = fun r d => (x r d : EReal) := funext (fun r => funext (fun d => hx r d))
  subst hzx
  rw [denomK_coe, denomR_coe, sum_sub_diag]

end Cert.Law

end
-- ==== Proof.IdealCol.lean ====
/-
  The column the kernel body computes, read at one entry.

  The body gets a block `x0` of 1024 rows and the whole array `x1` of 8192 rows, 256 numbers each. Entry `p` of its column is
      (((0 + s 0) + s 1) + … + s 7)  -  exp (2 · Σ_d x0(p,d)²),
  where `s k` is the sum over the 1024 rows `e` of piece `k` of `exp (2 · Σ_d x0(p,d) · x1(1024·k + e, d))`: a product of the
  row block with the transposed piece, doubled, exponentiated and summed along the rows of the piece.

  When row `p` of the block is row `r` of an array `z` and the whole array is `z`, piece `k`'s row `e` is row `1024·k + e` of `z`, so
  `s k` is the sum over that run of columns of `exp (2 · sim z r c)`, and the entry is the specification's `denomK z r`: the same
  eight runs in the same left-to-right order, each of the specification's runs and its diagonal term starting from a zero that adds nothing.
-/
import proofs.«146991_j9397388444288_2_alg».proof.Proof.IdealBody
import proofs.«146991_j9397388444288_2_alg».proof.Proof.Spec
import proofs.«146991_j9397388444288_2_alg».proof.Proof.LibRowOps
import proofs.«146991_j9397388444288_2_alg».proof.Proof.LibUnitColumn
import proofs.«146991_j9397388444288_2_alg».proof.Proof.Law
import Idealize.ShloMosaic.PureOps.Ideal
import Idealize.ShloMosaic.PureOps.Ideal.Laws
import Idealize.ShloMosaic.Lib.Pipeline.Value
import Idealize.ShloMosaic.Lib.ValueIdx

set_option maxRecDepth 16384

noncomputable section

namespace Cert.KernelIdeal.Col

open Cert.KernelIdeal Cert.KernelIdeal.Gen Cert.KernelIdeal.Body
open Idealize.ShloMosaic Idealize.ShloMosaic.ValueIdx

local notation "D" => dot_S1024x256_S1024x256_S1024x1024_1_1_0_0_n_n

/-! ## The product of a row block with a transposed piece, read at an entry -/

theorem lhs0 (i : S1024x1024.Idx) (q : (D).contr.Idx) : ((D).lhsIdx i q 0).val = (i 0).val := by
  unfold DotDims.lhsIdx
  rw [dif_neg (show ¬(0 : Fin S1024x256.rank) ∈ (D).lhsBatch by decide), dif_pos (show (0 : Fin S1024x256.rank) ∈ (D).lhsNonContracting by decide)]
  rfl
theorem lhs1 (i : S1024x1024.Idx) (q : (D).contr.Idx) : ((D).lhsIdx i q 1).val = (q ⟨0, by decide⟩).val :=
  (D).lhsIdx_val_of_single rfl i q
theorem rhs0 (i : S1024x1024.Idx) (q : (D).contr.Idx) : ((D).rhsIdx i q 0).val = (i 1).val := by
  unfold DotDims.rhsIdx
  rw [dif_neg (show ¬(0 : Fin S1024x256.rank) ∈ (D).rhsBatch by decide), dif_pos (show (0 : Fin S1024x256.rank) ∈ (D).rhsNonContracting by decide)]
  rfl
theorem rhs1 (i : S1024x1024.Idx) (q : (D).contr.Idx) : ((D).rhsIdx i q 1).val = (q ⟨0, by decide⟩).val :=
  (D).rhsIdx_val_of_single rfl i q

/-- Both operands are contracted along their second axis: entry `(p, e)` of the product is the dot product of row `p` of
    the left operand with row `e` of the right one. -/
theorem mm_apply (lhs rhs : FVec Ideal S1024x256 .bf16) (p e : Fin 1024) :
    FloatOps.matmul (D) none lhs rhs (constant S1024x1024 .f32 0x00000000#32) (ix2 p e)
      = ∑ x : Fin 256, lhs (ix2 p x) * rhs (ix2 e x) := by
  rw [Ideal.matmul_constant_zero_apply, ← Equiv.sum_comp (contrEquiv1 (D) 256 rfl rfl).symm]
  refine Finset.sum_congr rfl fun x _ => ?_
  have hk := contrEquiv1_symm_val (D) 256 rfl rfl x
  have el : (D).lhsIdx (ix2 p e) ((contrEquiv1 (D) 256 rfl rfl).symm x) = ix2 p x := funext fun a => Fin.ext (by
    match a with
    | ⟨0, _⟩ => exact lhs0 _ _
    | ⟨1, _⟩ => exact (lhs1 _ _).trans hk)
  have er : (D).rhsIdx (ix2 p e) ((contrEquiv1 (D) 256 rfl rfl).symm x) = ix2 e x := funext fun a => Fin.ext (by
    match a with
    | ⟨0, _⟩ => exact rhs0 _ _
    | ⟨1, _⟩ => exact (rhs1 _ _).trans hk)
  rw [el, er]

/-! ## A sum along the rows of a square block, kept as a column -/

/-- Entry `(p, 0)` of the column got by summing a `1024 × 1024` array along its second axis is the sum of row `p`. -/
theorem red_apply (w : FVec Ideal S1024x1024 .f32) (p : Fin 1024) :
    shapeCast S1024x1 (multiReduction (F := Ideal) .add [1] S1024 w 0x00000000#32 reduces_S1024x1024_S1024 (.inl rfl) rfl)
        shapeCasts_S1024_S1024x1 (ix2 p (0 : Fin 1))
      = ∑ e : Fin 1024, w (ix2 p e) :=
  (Cert.LibUnitColumn.shapeCast_a_a1_apply _ _ p 0).trans (Cert.LibRowOps.rowSum_apply w _ _ _ p)

/-- The sum over the 1024 rows `e` of a piece of `exp (2 · ⟨row p of the block, row e of the piece⟩)`. -/
def runOf (v0 piece : Vec Ideal S1024x256 .bf16) (p : Fin 1024) : EReal :=
  ∑ e : Fin 1024, Ideal.exp ((∑ x : Fin 256, v0 (ix2 p x) * piece (ix2 e x)) * Cert.Spec.two)

/-- A cast of a block to its own shape changes nothing. -/
theorem pay2_eq (v0 : Vec Ideal S1024x256 .bf16) : k0_pay2 (F := Ideal) v0 = v0 :=
  shapeCast_self _ _

/-- One entry of the doubled, exponentiated product of the block with a transposed piece. -/
theorem term_apply (v1 : FVec Ideal S1024x256 .bf16) (piece : Vec Ideal S1024x256 .bf16) (p e : Fin 1024) :
    exp (mulf (matmul (D) none v1 (shapeCast S1024x256 piece shapeCasts_S1024x256_S1024x256 : FVec Ideal S1024x256 .bf16)
        (constant (F := Ideal) S1024x1024 .f32 0x00000000#32)) (broadcast S1024x1024 (Scalar.ofBits (F := Ideal) .f32 0x40000000#32))) (ix2 p e)
      = Ideal.exp ((∑ x : Fin 256, v1 (ix2 p x) * piece (ix2 e x)) * Cert.Spec.two) := by
  refine congrArg (fun t => Ideal.exp (t * Cert.Spec.two)) ?_
  refine (mm_apply v1 _ p e).trans ?_
  rw [shapeCast_self]

/-- One run: the product with the transposed piece, doubled, exponentiated, summed along the piece's rows. -/
theorem run_apply (v1 : FVec Ideal S1024x256 .bf16) (piece : Vec Ideal S1024x256 .bf16) (p : Fin 1024) :
    shapeCast S1024x1 (multiReduction (F := Ideal) .add [1] S1024
        (exp (mulf (matmul (D) none v1 (shapeCast S1024x256 piece shapeCasts_S1024x256_S1024x256 : FVec Ideal S1024x256 .bf16)
          (constant (F := Ideal) S1024x1024 .f32 0x00000000#32)) (broadcast S1024x1024 (Scalar.ofBits (F := Ideal) .f32 0x40000000#32))))
        0x00000000#32 reduces_S1024x1024_S1024 (.inl rfl) rfl) shapeCasts_S1024_S1024x1 (ix2 p (0 : Fin 1))
      = runOf v1 piece p :=
  (red_apply _ p).trans (Finset.sum_congr rfl fun e _ => term_apply v1 piece p e)

/-- The block's own squared row length, kept as a column. -/
theorem self_apply (v0 : Vec Ideal S1024x256 .bf16) (p : Fin 1024) :
    k0_pay3 (F := Ideal) v0 (ix2 p (0 : Fin 1)) = ∑ d : Fin 256, v0 (ix2 p d) * v0 (ix2 p d) := by
  unfold k0_pay3
  refine (Cert.LibUnitColumn.shapeCast_a_a1_apply _ _ p 0).trans ?_
  refine (Cert.LibRowOps.rowSum_apply _ _ _ _ p).trans ?_
  refine Finset.sum_congr rfl fun d _ => ?_
  show k0_pay2 (F := Ideal) v0 (ix2 p d) * k0_pay2 (F := Ideal) v0 (ix2 p d) = _
  rw [pay2_eq]

/-! ## The three stretches of the running sum, each at entry `(p, 0)` -/

/-- The first stretch: a zero column plus the first two runs. -/
theorem pay4_apply (v0 v10 v22 : Vec Ideal S1024x256 .bf16) (p : Fin 1024) :
    k0_pay4 (F := Ideal) v0 v10 v22 (ix2 p (0 : Fin 1))
      = (Cert.Spec.zero + runOf v0 v10 p) + runOf v0 v22 p := by
  unfold k0_pay4
  refine congrArg₂ (· + ·) (congrArg₂ (· + ·) rfl ?_) ?_
  · exact (run_apply (k0_pay2 (F := Ideal) v0) v10 p).trans (by rw [pay2_eq])
  · exact (run_apply (k0_pay2 (F := Ideal) v0) v22 p).trans (by rw [pay2_eq])

/-- The third run's product, doubled, at an entry. -/
theorem pay56_apply (v0 v34 : Vec Ideal S1024x256 .bf16) (p e : Fin 1024) :
    exp (mulf (k0_pay5 (F := Ideal) v0 v34) (k0_pay6 (F := Ideal))) (ix2 p e)
      = Ideal.exp ((∑ x : Fin 256, v0 (ix2 p x) * v34 (ix2 e x)) * Cert.Spec.two) := by
  unfold k0_pay5 k0_pay6
  exact (term_apply (k0_pay2 (F := Ideal) v0) v34 p e).trans (by rw [pay2_eq])

/-- The second stretch: what came before plus the next four runs. -/
theorem pay7_apply (v0 : Vec Ideal S1024x256 .bf16) (v30 : FVec Ideal S1024x1 .f32) (v34 v46 v58 v70 : Vec Ideal S1024x256 .bf16)
    (p : Fin 1024) :
    k0_pay7 (F := Ideal) (k0_pay2 (F := Ideal) v0) v30 (k0_pay5 (F := Ideal) v0 v34) (k0_pay6 (F := Ideal)) v46 v58 v70 (ix2 p (0 : Fin 1))
      = (((v30 (ix2 p (0 : Fin 1)) + runOf v0 v34 p) + runOf v0 v46 p) + runOf v0 v58 p) + runOf v0 v70 p := by
  unfold k0_pay7
  refine congrArg₂ (· + ·) (congrArg₂ (· + ·) (congrArg₂ (· + ·) (congrArg₂ (· + ·) rfl ?_) ?_) ?_) ?_
  · exact (red_apply _ p).trans (Finset.sum_congr rfl fun e _ => pay56_apply v0 v34 p e)
  · exact (run_apply (k0_pay2 (F := Ideal) v0) v46 p).trans (by rw [pay2_eq])
  · exact (run_apply (k0_pay2 (F := Ideal) v0) v58 p).trans (by rw [pay2_eq])
  · exact (run_apply (k0_pay2 (F := Ideal) v0) v70 p).trans (by rw [pay2_eq])

/-- The last stretch: what came before plus the last two runs, less the exponential of the doubled squared length. -/
theorem pay1_apply (v0 : Vec Ideal S1024x256 .bf16) (v5 v78 : FVec Ideal S1024x1 .f32) (v82 v94 : Vec Ideal S1024x256 .bf16)
    (p : Fin 1024) :
    k0_pay1 (F := Ideal) (k0_pay2 (F := Ideal) v0) v5 v78 v82 v94 (ix2 p (0 : Fin 1))
      = ((v78 (ix2 p (0 : Fin 1)) + runOf v0 v82 p) + runOf v0 v94 p) - Ideal.exp (v5 (ix2 p (0 : Fin 1)) * Cert.Spec.two) := by
  unfold k0_pay1
  refine congrArg₂ (· - ·) (congrArg₂ (· + ·) (congrArg₂ (· + ·) rfl ?_) ?_) rfl
  · exact (run_apply (k0_pay2 (F := Ideal) v0) v82 p).trans (by rw [pay2_eq])
  · exact (run_apply (k0_pay2 (F := Ideal) v0) v94 p).trans (by rw [pay2_eq])

/-! ## The loads -/

/-- The load of the whole row block reads the block. -/
theorem ld_rq (x0 : Vec Ideal S1024x256 .bf16) : View.ld x0 rq = x0 :=
  View.ld_unit_zero (S := S1024x256) (funext fun a => by match a with | ⟨0, _⟩ => rfl | ⟨1, _⟩ => rfl) _ x0

/-- A piece of 1024 rows starting at row `o`: its entry `(e, d)` is the array's entry `(o + e, d)`. -/
theorem ld_piece (x1 : Vec Ideal S8192x256 .bf16) (o : Nat)
    (hin : ∀ a, (![o, 0] : Fin 2 → Nat) a + S1024x256.size a ≤ S8192x256.size a) (e : Fin 1024) (d : Fin 256) (c : Fin 8192)
    (hc : c.val = o + e.val) :
    View.ld x1 (Rect.unit (s := S8192x256) ![o, 0] S1024x256.size hin) (ix2 e d) = x1 (ix2 c d) := by
  show x1 _ = x1 _
  refine congrArg x1 (funext fun a => Fin.ext ?_)
  match a with
  | ⟨0, _⟩ => show o + 1 * e.val = c.val; omega
  | ⟨1, _⟩ => show 0 + 1 * d.val = d.val; omega

/-! ## The column entry is the specification's denominator -/

/-- A run over a piece that holds the rows of run `k`, from a block whose row `p` is row `r`, is the specification's run. -/
theorem runOf_eq (v0 piece : Vec Ideal S1024x256 .bf16) (z : Fin 8192 → Fin 256 → EReal) (r : Fin 8192) (k : Fin 8) (p : Fin 1024)
    (hv0 : ∀ d : Fin 256, v0 (ix2 p d) = z r d) (hpiece : ∀ (e : Fin 1024) (d : Fin 256), piece (ix2 e d) = z (Cert.Spec.col k e) d) :
    runOf v0 piece p = Cert.Spec.runSum z r k := by
  unfold runOf Cert.Spec.runSum Cert.Spec.sim
  rw [Cert.Law.zero_eq, zero_add]
  refine Finset.sum_congr rfl fun e _ => ?_
  refine congrArg (fun t => Ideal.exp (t * Cert.Spec.two)) (Finset.sum_congr rfl fun x _ => ?_)
  rw [hv0, hpiece]

/-- Entry `(p, 0)` of the body's column, when row `p` of the block is row `r` of the array `z` and the whole array is `z`:
    the eight runs added left to right onto zero, less the diagonal term. -/
theorem col_apply (x0 : Vec Ideal S1024x256 .bf16) (x1 : Vec Ideal S8192x256 .bf16) (z : Fin 8192 → Fin 256 → EReal)
    (r : Fin 8192) (p : Fin 1024)
    (h0 : ∀ d : Fin 256, x0 (ValueIdx.ix2 p d) = z r d)
    (h1 : ∀ (r' : Fin 8192) (d : Fin 256), x1 (ValueIdx.ix2 r' d) = z r' d) :
    colOf (F := Ideal) x0 x1 (ValueIdx.ix2 p (0 : Fin 1)) = Cert.Spec.denomK z r := by
  have hp : ∀ (k : Fin 8) (o : Nat) (hin : ∀ a, (![o, 0] : Fin 2 → Nat) a + S1024x256.size a ≤ S8192x256.size a)
      (ho : o = k.val * 1024),
      runOf x0 (View.ld x1 (Rect.unit (s := S8192x256) ![o, 0] S1024x256.size hin)) p = Cert.Spec.runSum z r k :=
    fun k o hin ho => runOf_eq x0 _ z r k p h0 fun e d =>
      (ld_piece x1 o hin e d (Cert.Spec.col k e) (by show k.val * 1024 + e.val = o + e.val; omega)).trans (h1 _ d)
  unfold colOf
  rw [ld_rq]
  refine (pay1_apply x0 _ _ _ _ p).trans ?_
  rw [pay7_apply, pay4_apply, self_apply]
  unfold Cert.Spec.denomK Cert.Spec.selfTerm
  rw [hp 0 0 _ rfl, hp 1 1024 _ rfl, hp 2 2048 _ rfl, hp 3 3072 _ rfl, hp 4 4096 _ rfl, hp 5 5120 _ rfl, hp 6 6144 _ rfl,
    hp 7 7168 _ rfl]
  have hs : (∑ d : Fin 256, x0 (ix2 p d) * x0 (ix2 p d)) = Cert.Spec.zero + ∑ d : Fin 256, z r d * z r d := by
    rw [Cert.Law.zero_eq, zero_add]
    exact Finset.sum_congr rfl fun d _ => by rw [h0]
  rw [hs]

end Cert.KernelIdeal.Col

end
-- ==== Proof.IdealFinal.lean ====
/-
  From the eight blocks to the whole column: each grid point writes back the block of 1024 entries of ONE function of the
  stacked array (entry `r`: the kernel-form denominator of row `r`), the eight blocks tile the column, so after the region the
  column IS that function.
-/
import proofs.«146991_j9397388444288_2_alg».proof.Proof.IdealRun
import proofs.«146991_j9397388444288_2_alg».proof.Proof.IdealCol
import proofs.«146991_j9397388444288_2_alg».proof.Proof.Spec
import Idealize.ShloMosaic.PureOps.Ideal
import Idealize.ShloMosaic.Lib.Pipeline.Value
import Idealize.ShloMosaic.Lib.ValueIdx

set_option maxRecDepth 16384

noncomputable section

namespace Cert.KernelIdeal.Final

open Cert.KernelIdeal Cert.KernelIdeal.Gen Cert.KernelIdeal.Body Cert.KernelIdeal.Run
open Idealize.ShloMosaic Idealize.ShloMosaic.TcCoe Idealize.ShloMosaic.ValueIdx Idealize.SL.Sem
open Idealize.ShloMosaic.Pipeline (Dat)

/-! ## The stacked array as the region finds it, and the column the region writes -/

variable (m : (ℓ : Loc nD τ sig) → Buf (Elt Ideal) ℓ) (ρ : Dev nD → PrngReg)

/-- The stacked array when the region is entered, as a function of its row and column. -/
def zOf (c : Dev nD) : Fin 8192 → Fin 256 → EReal := fun r d => (V1 m ρ c main_v18 : S8192x256.Idx → EReal) (ix2 r d)

/-- The output column as ONE function of the stacked array: entry `r` is the kernel-form denominator of row `r`. -/
def G (c : Dev nD) : S8192x1.Idx → EReal := fun i => Cert.Spec.denomK (zOf m ρ c) ⟨(i 0).val, (i 0).isLt⟩

theorem hz : (![0, 0] : Fin 2 → Nat) = fun _ => 0 := funext fun a => by fin_cases a <;> rfl

/-- The three windows' block indices at every grid point, decided over the grid: the row block and the output block are the
    point's own, the whole array's block is the first. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every one of the eight row blocks is some point's. -/
theorem idx_onto : ∀ q : Fin 8, ∃ t : Fin cfg0.N, t.val = q.val :=
  (by decide +kernel : ∀ q : Fin 8, ∃ t : Fin grid0.N, t.val = q.val)

/-- WHAT POINT `t` WRITES BACK is block `t` of `G`. -/
theorem flushed_eq (c : Dev nD) (t : Fin cfg0.N) :
    (dat (V1 m ρ) c).flushed 2 t = ((cfg0.win 2).blk t).view.read (Elt Ideal) (G m ρ c) := by
  show (cfg0.win 2).cut (grid0.coords t) ((dat (V1 m ρ) c).after 2 t) = _
  rw [after_2]
  unfold out2
  rw [View.canon_unit_zero hz]
  obtain ⟨e00, e01, e10, e11, e20, e21⟩ := idx_facts t
  have ht : t.val < 8 := lt_of_lt_of_eq t.isLt N_0
  funext j
  obtain ⟨p, u, rfl⟩ : ∃ (p : Fin 1024) (u : Fin 1), j = ix2 p u := ⟨j 0, j 1, eq_ix2 j⟩
  obtain rfl : u = 0 := Subsingleton.elim _ _
  have hr : t.val * 1024 + p.val < 8192 := by have := p.isLt; omega
  refine (Cert.KernelIdeal.Col.col_apply _ _ (zOf m ρ c) ⟨t.val * 1024 + p.val, hr⟩ p ?_ ?_).trans ?_
  · intro d
    show V1 m ρ c main_v18 (((cfg0.win 0).blk t).view.emb (ix2 p d)) = V1 m ρ c main_v18 (ix2 ⟨t.val * 1024 + p.val, hr⟩ d)
    refine congrArg _ (funext fun a => Fin.ext ?_)
    match a with
    | ⟨0, _⟩ => show win0_0.index t (0 : Fin 2) * 1024 + 1 * p.val = t.val * 1024 + p.val; omega
    | ⟨1, _⟩ => show win0_0.index t (1 : Fin 2) * 256 + 1 * d.val = d.val; omega
  · intro r' d
    show V1 m ρ c main_v18 (((cfg0.win 1).blk t).view.emb (ix2 r' d)) = V1 m ρ c main_v18 (ix2 r' d)
    refine congrArg _ (funext fun a => Fin.ext ?_)
    match a with
    | ⟨0, _⟩ => show win0_1.index t (0 : Fin 2) * 8192 + 1 * r'.val = r'.val; omega
    | ⟨1, _⟩ => show win0_1.index t (1 : Fin 2) * 256 + 1 * d.val = d.val; omega
  · show Cert.Spec.denomK (zOf m ρ c) ⟨t.val * 1024 + p.val, hr⟩ = Cert.Spec.denomK (zOf m ρ c) ⟨((((cfg0.win 2).blk t).view.emb (ix2 p 0)) 0).val, _⟩
    refine congrArg _ (Fin.ext ?_)
    show t.val * 1024 + p.val = win0_2.index t (0 : Fin 2) * 1024 + 1 * p.val
    omega

/-- An index of the column is in point `t`'s block iff each coordinate is in the block's range on its axis. -/
theorem mem_blk (t : Fin cfg0.N) (i : S8192x1.Idx) :
    i ∈ ((cfg0.win 2).blk t).view.set ↔ ∀ a : Fin 2, win0_2.index t a * S1024x1.size a ≤ (i a).val ∧ (i a).val < win0_2.index t a * S1024x1.size a + S1024x1.size a := by
  show i ∈ ((View.whole main_v19).slice (win0_2.rect t)).set ↔ _
  rw [View.set_slice_whole, Rect.mem_set_unit]
  exact Iff.rfl

/-- The eight blocks cover the column: entry `r` is in the block of point `r / 1024`. -/
theorem cover (i : S8192x1.Idx) : ∃ t : Fin cfg0.N, (cfg0.win 2).flush t = true ∧ i ∈ ((cfg0.win 2).blk t).view.set := by
  have hi0 : (i 0).val < 8192 := (i 0).isLt
  have hi1 : (i 1).val < 1 := (i 1).isLt
  obtain ⟨t, ht⟩ := idx_onto ⟨(i 0).val / 1024, by omega⟩
  obtain ⟨-, -, -, -, e20, e21⟩ := idx_facts t
  have ht' : t.val = (i 0).val / 1024 := ht
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1 ≤ (i 1).val ∧ (i 1).val < win0_2.index t (1 : Fin 2) * 1 + 1; omega

/-- THE COLUMN AFTER THE REGION is `G`. -/
theorem final (c : Dev nD) : (dat (V1 m ρ) c).arrAt 2 cfg0.N = G m ρ c :=
  (dat (V1 m ρ) c).arrAt_eq_of_cover 2 (G m ρ c) (fun t _ => flushed_eq m ρ c t) (cover)

end Cert.KernelIdeal.Final

end
-- ==== Proof.HostSpec.lean ====
/-
  The host arithmetic both programs share, written once.

  Both programs begin by scaling each row of each input to unit Euclidean length — x / max(√(Σ_k x_k²), ε) — and both
  end by averaging, over the 8192 rows, the quantity  −(pos / ½) + log(denom).  Stating these two pieces once, over
  literal shapes and with their shape side conditions proved here, lets either program's value be written with the
  same terms, so that the final comparison is a congruence in the two vectors `pos` and `denom`.

  The positive-pair vector of the first program is also here: the row sums of the product of the two scaled inputs,
  repeated twice end to end. Read at row r it is the sum, from a zero start, over the 256 columns of the products of
  row (r mod 4096) of the two halves.
-/
import Idealize.ShloMosaic.PureOps
import Idealize.ShloMosaic.PureOps.Ideal
import Idealize.ShloMosaic.PureOps.Ideal.Laws
import Idealize.ShloMosaic.Lib.StableHlo
import Idealize.ShloMosaic.Lib.ValueIdx
import Idealize.ShloMosaic.Lib.Pipeline.Value
import proofs.«146991_j9397388444288_2_alg».proof.Proof.Spec

noncomputable section

namespace Cert.HostSpec

open Idealize.ShloMosaic

abbrev S4096x256 : Shape := ⟨2, ![4096, 256]⟩
abbrev S_ : Shape := ⟨0, ![]⟩
abbrev S4096 : Shape := ⟨1, ![4096]⟩
abbrev S4096x1 : Shape := ⟨2, ![4096, 1]⟩
abbrev S8192 : Shape := ⟨1, ![8192]⟩

/-! The shape relations the operations below take. -/

theorem reducesTo_S4096x256_S4096_d1 : S4096x256.ReducesTo [1] S4096 := by decide
theorem h_S_ : 0 < S_.numel := by decide
theorem bcast_S4096_S4096x1_0 : S4096.BroadcastsInDim S4096x1 (![0] : Fin 1 → Fin S4096x1.rank) := by decide
theorem bcast_S_S4096x1 : S_.BroadcastsInDim S4096x1 (![] : Fin 0 → Fin S4096x1.rank) := by decide
theorem bcast_S4096x1_S4096x256_0_1 : S4096x1.BroadcastsInDim S4096x256 (![0, 1] : Fin 2 → Fin S4096x256.rank) := by decide
theorem concatenates_S4096_S4096_S8192_d0 : Shape.Concatenates [S4096, S4096] S8192 0 := by decide
theorem bcast_S_S8192 : S_.BroadcastsInDim S8192 (![] : Fin 0 → Fin S8192.rank) := by decide
theorem reducesTo_S8192_S_d0 : S8192.ReducesTo [0] S_ := by decide

/-- Each row scaled to unit length: x / max(√(0 + Σ_k x_k · x_k), ε), ε the word 0x2B8CBCCC. -/
def nrm (x : FVec Ideal S4096x256 .f32) : FVec Ideal S4096x256 .f32 :=
  Host.divf x
    (broadcastInDim S4096x256 ![0, 1] bcast_S4096x1_S4096x256_0_1
      (maximumf
        (Host.sqrt
          (broadcastInDim S4096x1 ![0] bcast_S4096_S4096x1_0
            (Host.reduceAdd (mulf x x) (constant (F := Ideal) S_ .f32 0x00000000#32) reducesTo_S4096x256_S4096_d1 h_S_)))
        (broadcastInDim S4096x1 ![] bcast_S_S4096x1 (constant (F := Ideal) S_ .f32 0x2B8CBCCC#32))))

/-- The row sums, from a zero start, of the entrywise product of two arrays. -/
def rowDot (a b : FVec Ideal S4096x256 .f32) : FVec Ideal S4096 .f32 :=
  Host.reduceAdd (mulf a b) (constant (F := Ideal) S_ .f32 0x00000000#32) reducesTo_S4096x256_S4096_d1 h_S_

/-- The positive-pair vector: the row sums of the product, twice end to end. -/
def posVec (a b : FVec Ideal S4096x256 .f32) : FVec Ideal S8192 .f32 :=
  concatenate S8192 0 [⟨S4096, rowDot a b⟩, ⟨S4096, rowDot a b⟩] concatenates_S4096_S4096_S8192_d0

/-- The loss from the two vectors: the sum over the rows, from a zero start, of −(pos / ½) + log den, divided by 8192. -/
def lossOf (pos den : FVec Ideal S8192 .f32) : FVec Ideal S_ .f32 :=
  Host.divf
    (Host.reduceAdd
      (addf
        (Host.negf (Host.divf pos (broadcastInDim S8192 ![] bcast_S_S8192 (constant (F := Ideal) S_ .f32 0x3F000000#32))))
        (Host.log den))
      (constant (F := Ideal) S_ .f32 0x00000000#32) reducesTo_S8192_S_d0 h_S_)
    (constant (F := Ideal) S_ .f32 0x46000000#32)

/-- A row sum of the product read at row `i`: zero plus the sum over the 256 columns of the products. -/
theorem rowDot_apply (a b : FVec Ideal S4096x256 .f32) (i : Fin 4096) :
    rowDot a b (ValueIdx.ix1 i) = Cert.Spec.zero + ∑ d : Fin 256, a (ValueIdx.ix2 i d) * b (ValueIdx.ix2 i d) := by
  unfold rowDot
  generalize hy : mulf a b = y0
  simp only [Host.reduceAdd, Ideal.hostReduceAdd_def]
  rw [Ideal.hostReduceAdd_single reducesTo_S4096x256_S4096_d1 (by decide)]
  refine congrArg (_ + ·) (Finset.sum_congr rfl fun k _ => ?_)
  subst hy
  refine (congrArg (mulf a b) (funext fun c => Fin.ext (by match c with | ⟨0, _⟩ => rfl | ⟨1, _⟩ => rfl))).trans
    (ValueIdx.mulf_apply a b (ValueIdx.ix2 i k))

/-- The positive-pair vector read at row `r`: the row sum at row `r` below 4096, at row `r − 4096` from there on. -/
theorem posVec_apply (a b : FVec Ideal S4096x256 .f32) (r : Fin 8192) :
    posVec a b (ValueIdx.ix1 r)
      = Cert.Spec.posK (fun i d => a (ValueIdx.ix2 i d)) (fun i d => b (ValueIdx.ix2 i d)) r := by
  unfold posVec Cert.Spec.posK Cert.Spec.halfRow
  by_cases h : r.val < 4096
  · rw [dif_pos h]
    refine (concatenate_pair_apply_left (0 : Fin S8192.rank) (rowDot a b) (rowDot a b) concatenates_S4096_S4096_S8192_d0
      (ValueIdx.ix1 r) rfl (ValueIdx.ix1 ⟨r.val, h⟩) (fun c => by match c with | ⟨0, _⟩ => rfl)).trans ?_
    exact rowDot_apply a b ⟨r.val, h⟩
  · rw [dif_neg h]
    have h2 : r.val - 4096 < 4096 := by have := r.isLt; omega
    refine (concatenate_pair_apply_right (0 : Fin S8192.rank) (rowDot a b) (rowDot a b) concatenates_S4096_S4096_S8192_d0
      (ValueIdx.ix1 r) rfl rfl (ValueIdx.ix1 ⟨r.val - 4096, h2⟩)
      (fun c hc => (hc (Fin.ext (by
        have hlt : c.val < 1 := c.isLt
        show c.val = 0
        omega))).elim)
      (by show r.val - 4096 + 4096 = r.val; omega)).trans ?_
    exact rowDot_apply a b ⟨r.val - 4096, h2⟩

end Cert.HostSpec

end
-- ==== Proof.IdealHost.lean ====
/-
  The first program's host arithmetic, identified with the shared pieces.

  Before the region the program scales each argument to unit-length rows — the shared scaling — and stacks the two
  results, each narrowed, one above the other; that stack is what the region reads. After the region it reads the
  output column as a vector and applies the shared loss to the positive-pair vector of the two scaled arguments and to
  that vector. Each statement is obtained by following the buffers through the operations in order; the terms that
  result are the shared ones by unfolding.
-/
import proofs.«146991_j9397388444288_2_alg».proof.Proof.IdealRun
import proofs.«146991_j9397388444288_2_alg».proof.Proof.HostSpec

set_option maxRecDepth 16384

noncomputable section

namespace Cert.KernelIdeal.Host

open Cert.KernelIdeal Cert.KernelIdeal.Gen Cert.KernelIdeal.Body Cert.KernelIdeal.Run
open Idealize.ShloMosaic Idealize.ShloMosaic.TcCoe Idealize.ShloMosaic.Tactic
open Idealize.SL.Sem
open Idealize.ShloMosaic.Pipeline (Dat Cfg Window)

variable (m : (ℓ : Loc nD τ sig) → Buf (Elt Ideal) ℓ) (ρ : Dev nD → PrngReg)

/-- What the region finds in the first scaled input: the shared scaling of the first argument. -/
theorem W1_v7 (c : Dev nD) :
    (W1 m ρ c (Proc.devRef .tc main_v7) : S4096x256.Idx → EReal)
      = Cert.HostSpec.nrm (m ((c : Thread nD τ).loc main_arg0)) := by
  show StableHlo.after hostOps0 _ (Proc.devRef .tc main_v7) = _
  after_results
  rfl

/-- What the region finds in the second scaled input: the shared scaling of the second argument. -/
theorem W1_v15 (c : Dev nD) :
    (W1 m ρ c (Proc.devRef .tc main_v15) : S4096x256.Idx → EReal)
      = Cert.HostSpec.nrm (m ((c : Thread nD τ).loc main_arg1)) := by
  show StableHlo.after hostOps0 _ (Proc.devRef .tc main_v15) = _
  after_results
  rfl

/-- What the region finds in the stacked array: the two scaled inputs, each narrowed, one above the other. -/
theorem W1_v18 (c : Dev nD) :
    (W1 m ρ c (Proc.devRef .tc main_v18) : S8192x256.Idx → EReal)
      = concatenate S8192x256 0
          [⟨S4096x256, truncf (F := Ideal) .bf16 (Cert.HostSpec.nrm (m ((c : Thread nD τ).loc main_arg0))) bitsLt_bf16_f32⟩,
           ⟨S4096x256, truncf (F := Ideal) .bf16 (Cert.HostSpec.nrm (m ((c : Thread nD τ).loc main_arg1))) bitsLt_bf16_f32⟩]
          concatenates_S4096x256_S4096x256_S8192x256_d0 := by
  show StableHlo.after hostOps0 _ (Proc.devRef .tc main_v18) = _
  after_results
  rfl

/-- What the program returns: the shared loss of the positive-pair vector of the two scaled inputs and of the output
    column the region left, read as a vector. -/
theorem W3_v30 (c : Dev nD) :
    (W3 m ρ c (Proc.devRef .tc main_v30) : S_.Idx → EReal)
      = Cert.HostSpec.lossOf
          (Cert.HostSpec.posVec (Cert.HostSpec.nrm (m ((c : Thread nD τ).loc main_arg0)))
            (Cert.HostSpec.nrm (m ((c : Thread nD τ).loc main_arg1))))
          (shapeCast S8192 ((dat (V1 m ρ) c).arrAt 2 cfg0.N : S8192x1.Idx → EReal) shapeCasts_S8192x1_S8192) := by
  have e19 : W2 m ρ c (Proc.devRef .tc main_v19) = (dat (V1 m ρ) c).arrAt 2 cfg0.N := W2_out m ρ c
  show StableHlo.after hostOps1 _ (Proc.devRef .tc main_v30) = _
  after_results
  rw [W2_of_ne m ρ c main_v7 (by decide), W2_of_ne m ρ c main_v15 (by decide), e19, W1_v7, W1_v15]
  rfl

end Cert.KernelIdeal.Host

end
-- ==== Proof.IdealReads.lean ====
/-
  Two reads of host arrays of the kernel program, at an index: the stacked array (the two normalised halves, each rounded
  to the short format — the identity on extended reals — and joined along the rows) is `Spec.stack` of the two halves; and the
  output column viewed as a vector has at entry `r` the column's entry `(r, 0)`.
-/
import proofs.«146991_j9397388444288_2_alg».proof.Proof.Gen.KernelIdeal
import proofs.«146991_j9397388444288_2_alg».proof.Proof.Spec
import Idealize.ShloMosaic.PureOps.Ideal
import Idealize.ShloMosaic.Lib.Pipeline.Value
import Idealize.ShloMosaic.Lib.ValueIdx

set_option maxRecDepth 16384

noncomputable section

namespace Cert.KernelIdeal.Reads

open Cert.KernelIdeal Cert.KernelIdeal.Gen
open Idealize.ShloMosaic Idealize.ShloMosaic.ValueIdx

/-- The stacked array at `(r, d)`: row `r` of the first half below 4096, row `r - 4096` of the second from there on; the change
    of float format on the way is the identity. -/
theorem stacked_apply (A B : FVec Ideal S4096x256 .f32) (r : Fin 8192) (d : Fin 256) :
    (concatenate S8192x256 0 [⟨S4096x256, (truncf .bf16 A bitsLt_bf16_f32 : FVec Ideal S4096x256 .bf16)⟩,
        ⟨S4096x256, (truncf .bf16 B bitsLt_bf16_f32 : FVec Ideal S4096x256 .bf16)⟩] concatenates_S4096x256_S4096x256_S8192x256_d0
      : S8192x256.Idx → EReal) (ix2 r d)
      = Cert.Spec.stack (fun i k => A (ix2 i k)) (fun i k => B (ix2 i k)) r d := by
  unfold Cert.Spec.stack
  by_cases h : r.val < 4096
  · rw [dif_pos h]
    exact concatenate_pair_apply_left (t := S8192x256) (s₁ := S4096x256) (s₂ := S4096x256) (0 : Fin 2)
      (truncf .bf16 A bitsLt_bf16_f32 : S4096x256.Idx → EReal) (truncf .bf16 B bitsLt_bf16_f32 : S4096x256.Idx → EReal) _ (ix2 r d) rfl
      (ix2 (⟨r.val, h⟩ : Fin 4096) d) (fun b => match b with | ⟨0, _⟩ => rfl | ⟨1, _⟩ => rfl)
  · rw [dif_neg h]
    exact concatenate_pair_apply_right (t := S8192x256) (s₁ := S4096x256) (s₂ := S4096x256) (0 : Fin 2)
      (truncf .bf16 A bitsLt_bf16_f32 : S4096x256.Idx → EReal) (truncf .bf16 B bitsLt_bf16_f32 : S4096x256.Idx → EReal) _ (ix2 r d) rfl rfl
      (ix2 (⟨r.val - 4096, by have := r.isLt; omega⟩ : Fin 4096) d)
      (fun b hb => match b, hb with | ⟨0, _⟩, hb => absurd rfl hb | ⟨1, _⟩, _ => rfl)
      (by show r.val - 4096 + 4096 = r.val; omega)

/-- The column as a vector: entry `r` is the column's entry `(r, 0)`. -/
theorem column_apply {α : Type} (X : S8192x1.Idx → α) (r : Fin 8192) :
    shapeCast S8192 X shapeCasts_S8192x1_S8192 (ix1 r) = X (ix2 r (0 : Fin 1)) :=
  shapeCast_apply X shapeCasts_S8192x1_S8192 _ _ (by
    rw [Shape.rowMajor_val_two, Shape.rowMajor_val_one]
    show r.val * 1 + 0 = r.val
    omega)

end Cert.KernelIdeal.Reads

end
-- ==== Proof.IdealResult.lean ====
/-
  What the kernel program returns, as one function of its two arguments: the common loss (`lossOf`) of the positive-pair
  vector of the two normalised halves and of the vector whose entry `r` is the kernel-form denominator of row `r` of the
  stacked normalised halves.
-/
import proofs.«146991_j9397388444288_2_alg».proof.Proof.IdealFinal
import proofs.«146991_j9397388444288_2_alg».proof.Proof.IdealHost
import proofs.«146991_j9397388444288_2_alg».proof.Proof.IdealReads
import proofs.«146991_j9397388444288_2_alg».proof.Proof.HostSpec

set_option maxRecDepth 16384

noncomputable section

namespace Cert.KernelIdeal.Result

open Cert.KernelIdeal Cert.KernelIdeal.Gen Cert.KernelIdeal.Body Cert.KernelIdeal.Run
open Idealize.ShloMosaic Idealize.ShloMosaic.TcCoe Idealize.ShloMosaic.ValueIdx Idealize.SL.Sem

variable (m : (ℓ : Loc nD τ sig) → Buf (Elt Ideal) ℓ) (ρ : Dev nD → PrngReg)

/-- The stacked array the region finds is the stack of the two normalised arguments. -/
theorem zOf_eq (c : Dev nD) :
    Cert.KernelIdeal.Final.zOf m ρ c
      = Cert.Spec.stack (fun r d => Cert.HostSpec.nrm (m ((c : Thread nD τ).loc main_arg0)) (ix2 r d))
          (fun r d => Cert.HostSpec.nrm (m ((c : Thread nD τ).loc main_arg1)) (ix2 r d)) := by
  funext r d
  unfold Cert.KernelIdeal.Final.zOf
  rw [show (V1 m ρ c main_v18 : S8192x256.Idx → EReal) = W1 m ρ c (Proc.devRef .tc main_v18) from rfl,
    Cert.KernelIdeal.Host.W1_v18 m ρ c]
  exact Cert.KernelIdeal.Reads.stacked_apply _ _ r d

/-- The output column after the region, viewed as a vector: entry `r` is the kernel-form denominator of row `r`. -/
theorem den_eq (c : Dev nD) :
    shapeCast S8192 ((dat (V1 m ρ) c).arrAt 2 cfg0.N) shapeCasts_S8192x1_S8192
      = fun i : S8192.Idx => Cert.Spec.denomK
          (Cert.Spec.stack (fun r d => Cert.HostSpec.nrm (m ((c : Thread nD τ).loc main_arg0)) (ix2 r d))
            (fun r d => Cert.HostSpec.nrm (m ((c : Thread nD τ).loc main_arg1)) (ix2 r d))) ⟨(i 0).val, (i 0).isLt⟩ := by
  rw [Cert.KernelIdeal.Final.final m ρ c]
  funext i
  obtain ⟨r, rfl⟩ : ∃ r : Fin 8192, i = ix1 r := ⟨i 0, eq_ix1 i⟩
  rw [Cert.KernelIdeal.Reads.column_apply]
  show Cert.Spec.denomK (Cert.KernelIdeal.Final.zOf m ρ c) r = Cert.Spec.denomK _ r
  rw [zOf_eq m ρ c]

/-- THE RESULT of the kernel program. -/
theorem result (c : Dev nD) :
    (W3 m ρ c (Proc.devRef .tc main_v30) : S_.Idx → EReal)
      = Cert.HostSpec.lossOf
          (Cert.HostSpec.posVec (Cert.HostSpec.nrm (m ((c : Thread nD τ).loc main_arg0))) (Cert.HostSpec.nrm (m ((c : Thread nD τ).loc main_arg1))))
          (fun i : S8192.Idx => Cert.Spec.denomK
            (Cert.Spec.stack (fun r d => Cert.HostSpec.nrm (m ((c : Thread nD τ).loc main_arg0)) (ix2 r d))
              (fun r d => Cert.HostSpec.nrm (m ((c : Thread nD τ).loc main_arg1)) (ix2 r d))) ⟨(i 0).val, (i 0).isLt⟩) := by
  rw [Cert.KernelIdeal.Host.W3_v30 m ρ c, den_eq m ρ c]

end Cert.KernelIdeal.Result

end
-- ==== Proof.RefRead.lean ====
/-
  The reference program read index by index, down to the shared specification.

  The two inputs are normalised row by row; those two arrays stay opaque here (`nA`, `nB`). What is read is everything
  after them: the two arrays stacked along the rows, the matrix of all pairwise dot products of the stacked rows, the
  vector of positive-pair similarities — each entry picked out of that matrix at a computed position 4096 columns or
  rows off the diagonal — and the vector of masked row sums of exponentials. Each is shown equal, entry by entry, to
  the function the specification names for it.
-/
import proofs.«146991_j9397388444288_2_alg».proof.Proof.Gen.ReferenceIdeal.Run
import proofs.«146991_j9397388444288_2_alg».proof.Proof.Gen.ReferenceIdeal.Read
import proofs.«146991_j9397388444288_2_alg».proof.Proof.Spec
import Idealize.ShloMosaic.Lib.Pipeline.Value
import Idealize.ShloMosaic.Lib.ValueIdx
import Idealize.ShloMosaic.PureOps.Ideal
import Idealize.ShloMosaic.PureOps.Ideal.Laws

noncomputable section

namespace Cert.ReferenceIdeal.RefValue

open Cert.ReferenceIdeal Cert.ReferenceIdeal.Gen Idealize.ShloMosaic Idealize.ShloMosaic.ValueIdx

local notation "GD" => gather_S8192x8192_S4096x2_S4096_n_01_n_n_01_1_11

/-- The first input's normalised rows, as a function of the row and the feature. -/
def nA (x0 : (⟨S4096x256, .f32⟩ : BufTy).Contents (Elt Ideal)) : Fin 4096 → Fin 256 → EReal :=
  fun r d => Read.val_main_v7 (F := Ideal) x0 (ValueIdx.ix2 r d)
/-- The second input's normalised rows, as a function of the row and the feature. -/
def nB (x1 : (⟨S4096x256, .f32⟩ : BufTy).Contents (Elt Ideal)) : Fin 4096 → Fin 256 → EReal :=
  fun r d => Read.val_main_v15 (F := Ideal) x1 (ValueIdx.ix2 r d)

/-! ## Words -/

/-- The index arithmetic's wrap-around of negative indices leaves a number below 8192 alone: as a 32-bit word it is not
    negative, so the select keeps it, and read back as a signed integer it is the number. -/
theorem wrap_word (n : Nat) (hn : n < 8192) :
    (Scalar.select (IntOp.cmpi .slt (BitVec.ofNat 32 n) 0#32) (IntOp.addi (BitVec.ofNat 32 n) 8192#32)
      (BitVec.ofNat 32 n)).toInt.toNat = n := by
  have htn : (BitVec.ofNat 32 n).toNat = n := by
    rw [BitVec.toNat_ofNat]; exact Nat.mod_eq_of_lt (by omega)
  have hti : (BitVec.ofNat 32 n).toInt = (n : Int) := by
    rw [BitVec.toInt_eq_toNat_of_lt (by rw [htn]; omega), htn]
  have hs : (BitVec.ofNat 32 n).slt 0#32 = false := by
    rw [BitVec.slt, hti]
    simp
  have hc : IntOp.cmpi .slt (BitVec.ofNat 32 n) 0#32 = 0#1 := by
    show BitVec.ofBool ((BitVec.ofNat 32 n).slt 0#32) = 0#1
    rw [hs]; rfl
  rw [hc, select_zero, hti]
  exact Int.toNat_natCast n

/-- The word of `4096 + e`. -/
theorem add_word (e : Nat) : IntOp.addi 4096#32 (BitVec.ofNat 32 e) = BitVec.ofNat 32 (4096 + e) := by
  show BitVec.ofNat 32 4096 + BitVec.ofNat 32 e = _
  exact (BitVec.ofNat_add 4096 e).symm

/-- Two row numbers below 8192 have the same 32-bit word exactly when they are equal, so the diagonal test gives the
    bit of `r = c`. -/
theorem diag_word (r c : Fin 8192) :
    IntOp.cmpi .eq (IntOp.addi (BitVec.ofNat 32 r.val) 0#32) (BitVec.ofNat 32 c.val) = if r = c then 1#1 else 0#1 := by
  show BitVec.ofBool (BitVec.ofNat 32 r.val + 0#32 == BitVec.ofNat 32 c.val) = _
  rw [BitVec.add_zero]
  by_cases h : r = c
  · subst h; rw [if_pos rfl]; simp
  · rw [if_neg h]
    have hne : ¬ BitVec.ofNat 32 r.val = BitVec.ofNat 32 c.val := by
      intro he
      apply h
      have h2 := congrArg BitVec.toNat he
      rw [BitVec.toNat_ofNat, BitVec.toNat_ofNat, Nat.mod_eq_of_lt (by have := r.isLt; omega),
        Nat.mod_eq_of_lt (by have := c.isLt; omega)] at h2
      exact Fin.ext h2
    have hb : (BitVec.ofNat 32 r.val == BitVec.ofNat 32 c.val) = false := beq_eq_false_iff_ne.mpr hne
    rw [hb]; rfl

/-- A bit converted to a float is the number 1 or 0. -/
theorem bit_float (p : Prop) [Decidable p] :
    (FloatOps.uitofp (F := Ideal) .f32 (if p then 1#1 else 0#1) : EReal) = if p then (1 : EReal) else 0 := by
  show (((if p then 1#1 else 0#1 : BitVec 1).toNat : ℝ) : EReal) = _
  by_cases h : p
  · rw [if_pos h, if_pos h]; simp
  · rw [if_neg h, if_neg h]; simp

/-! ## One element of the point gather -/

private theorem gather_all_collapsed : ∀ b : Fin S8192x8192.rank, b ∈ (GD).collapsedSliceDims := by decide

private theorem gather_coord0 (idx : IVec S4096x2 32) (e : Fin 4096) :
    (GD).start (ix1 e) idx (0 : Fin 2) + (GD).batchCoord (ix1 e) (0 : Fin 2) + (GD).offCoord (ix1 e) (0 : Fin 2)
      = min (idx (ix2 e (0 : Fin 2))).toInt.toNat 8191 := by
  rw [GatherDims.batchCoord_eq_zero _ _ _ List.not_mem_nil,
    GatherDims.offCoord_eq_zero _ _ _ (fun h => ((GatherDims.mem_sKept (GD) _).mp h).1 (gather_all_collapsed _))]
  simp only [Nat.add_zero]
  unfold GatherDims.start
  have hm : (0 : Fin S8192x8192.rank) ∈ (GD).startIndexMap := by decide
  rw [dif_pos hm]
  have hsi : (GD).siIdx (ix1 e) ⟨List.idxOf (0 : Fin S8192x8192.rank) (GD).startIndexMap, List.idxOf_lt_length_iff.2 hm⟩
      = ix2 e (0 : Fin 2) := by
    funext b; refine Fin.ext ?_
    match b with
    | ⟨0, _⟩ => rfl
    | ⟨1, _⟩ => rfl
  rw [hsi]
  rfl

private theorem gather_coord1 (idx : IVec S4096x2 32) (e : Fin 4096) :
    (GD).start (ix1 e) idx (1 : Fin 2) + (GD).batchCoord (ix1 e) (1 : Fin 2) + (GD).offCoord (ix1 e) (1 : Fin 2)
      = min (idx (ix2 e (1 : Fin 2))).toInt.toNat 8191 := by
  rw [GatherDims.batchCoord_eq_zero _ _ _ List.not_mem_nil,
    GatherDims.offCoord_eq_zero _ _ _ (fun h => ((GatherDims.mem_sKept (GD) _).mp h).1 (gather_all_collapsed _))]
  simp only [Nat.add_zero]
  unfold GatherDims.start
  have hm : (1 : Fin S8192x8192.rank) ∈ (GD).startIndexMap := by decide
  rw [dif_pos hm]
  have hsi : (GD).siIdx (ix1 e) ⟨List.idxOf (1 : Fin S8192x8192.rank) (GD).startIndexMap, List.idxOf_lt_length_iff.2 hm⟩
      = ix2 e (1 : Fin 2) := by
    funext b; refine Fin.ext ?_
    match b with
    | ⟨0, _⟩ => rfl
    | ⟨1, _⟩ => rfl
  rw [hsi]
  rfl

/-- One element of a point gather out of a square matrix: entry `e` of the result is the matrix's entry whose row and
    column are the two words of row `e` of the index array, each read as a signed integer and clamped into range. -/
theorem gather_point_apply {α : Type} (x : S8192x8192.Idx → α) (idx : IVec S4096x2 32) (e : Fin 4096) :
    Host.gather gather_S8192x8192_S4096x2_S4096_n_01_n_n_01_1_11 x idx (ix1 e) =
      x (ix2 (⟨min (idx (ix2 e (0 : Fin 2))).toInt.toNat 8191, by omega⟩ : Fin 8192)
             (⟨min (idx (ix2 e (1 : Fin 2))).toInt.toNat 8191, by omega⟩ : Fin 8192)) := by
  unfold Host.gather
  congr 1
  funext a
  refine Fin.ext ?_
  match a with
  | ⟨0, _⟩ => exact gather_coord0 idx e
  | ⟨1, _⟩ => exact gather_coord1 idx e

/-! ## The stacked array, the similarity matrix, the mask and the row sums -/

/-- The stacked array: rows below 4096 are the first input's normalised rows, the rest the second's. -/
theorem stack_apply (x0 x1 : (⟨S4096x256, .f32⟩ : BufTy).Contents (Elt Ideal)) (r : Fin 8192) (d : Fin 256) :
    Read.val_main_v16 (F := Ideal) x0 x1 (ix2 r d) = Cert.Spec.stack (nA x0) (nB x1) r d := by
  unfold Read.val_main_v16 Cert.Spec.stack
  by_cases h : r.val < 4096
  · rw [dif_pos h]
    exact concatenate_pair_apply_left (t := S8192x256) (s₁ := S4096x256) (s₂ := S4096x256) (0 : Fin 2)
      (Read.val_main_v7 (F := Ideal) x0) (Read.val_main_v15 (F := Ideal) x1) _ (ix2 r d) rfl
      (ix2 (⟨r.val, h⟩ : Fin 4096) d) (fun b => match b with | ⟨0, _⟩ => rfl | ⟨1, _⟩ => rfl)
  · rw [dif_neg h]
    exact concatenate_pair_apply_right (t := S8192x256) (s₁ := S4096x256) (s₂ := S4096x256) (0 : Fin 2)
      (Read.val_main_v7 (F := Ideal) x0) (Read.val_main_v15 (F := Ideal) x1) _ (ix2 r d) rfl rfl
      (ix2 (⟨r.val - 4096, by have := r.isLt; omega⟩ : Fin 4096) d)
      (fun b hb => match b, hb with | ⟨0, _⟩, hb => absurd rfl hb | ⟨1, _⟩, _ => rfl)
      (by show r.val - 4096 + 4096 = r.val; omega)

/-- The similarity matrix: entry `(r, c)` is the dot product of rows `r` and `c` of the stacked array. -/
theorem sim_apply (x0 x1 : (⟨S4096x256, .f32⟩ : BufTy).Contents (Elt Ideal)) (r c : Fin 8192) :
    Read.val_main_v18 (F := Ideal) x0 x1 (ix2 r c) = Cert.Spec.sim (Cert.Spec.stack (nA x0) (nB x1)) r c := by
  rw [Read.val_main_v18_apply]
  unfold Cert.Spec.sim
  refine Finset.sum_congr rfl fun k _ => ?_
  rw [Read.val_main_v17_apply]
  have e1 : Read.lidx_main_v18 (ix2 r c) k = ix2 r k :=
    funext fun a => match a with | ⟨0, _⟩ => rfl | ⟨1, _⟩ => rfl
  have e2 : Read.idx_main_v17 (Read.ridx_main_v18 (ix2 r c) k) = ix2 c k :=
    funext fun a => match a with | ⟨0, _⟩ => rfl | ⟨1, _⟩ => rfl
  rw [e1, e2, stack_apply, stack_apply]

/-- The mask: one less the indicator of the diagonal. -/
theorem mask_apply (r c : Fin 8192) : Read.val_main_v29 (F := Ideal) (ix2 r c) = Cert.Spec.mask r c := by
  rw [Read.val_main_v29_apply, Read.val_main_v28_apply, Read.val_main_cst_3_apply, Read.val_main_v27_apply,
    Read.val_main_v26_apply, Read.val_main_v25_apply, Read.val_main_v22_apply, Read.val_main_v24_apply,
    Read.val_main_c_apply, Read.val_main_v23_apply]
  show FloatOps.subf (F := Ideal) (φ := .f32) (Ideal.ofBits .f32 0x3F800000#32)
      (FloatOps.uitofp (F := Ideal) .f32
        (IntOp.cmpi .eq (IntOp.addi (BitVec.ofNat 32 r.val) 0#32) (BitVec.ofNat 32 c.val))) = _
  rw [diag_word, bit_float]
  rfl

/-- The masked row sums: row `r` adds, from a zero start, every column's mask entry times the exponential of the
    similarity divided by one half. -/
theorem denom_apply (x0 x1 : (⟨S4096x256, .f32⟩ : BufTy).Contents (Elt Ideal)) (r : Fin 8192) :
    Read.val_main_v34 (F := Ideal) x0 x1 (ValueIdx.ix1 r) = Cert.Spec.denomR (Cert.Spec.stack (nA x0) (nB x1)) r := by
  rw [Read.val_main_v34_apply, Read.val_main_cst_5_apply]
  unfold Cert.Spec.denomR
  refine congrArg (_ + ·) (Finset.sum_congr rfl fun k _ => ?_)
  have e : Read.idx_main_v34 (ix1 r) k = ix2 r k :=
    funext fun a => match a with | ⟨0, _⟩ => rfl | ⟨1, _⟩ => rfl
  rw [e, Read.val_main_v33_apply, mask_apply, Read.val_main_v32_apply, Read.val_main_v31_apply, sim_apply,
    Read.val_main_v30_apply, Read.val_main_cst_4_apply]
  rfl

/-! ## The index arrays and the positive-pair similarities -/

/-- The same element when the two index words are known to be the numbers `a` and `b`, both in range: the clamp does
    nothing. -/
theorem gather_point_apply_of {α : Type} (x : S8192x8192.Idx → α) (idx : IVec S4096x2 32) (e : Fin 4096) (a b : Fin 8192)
    (h0 : (idx (ix2 e (0 : Fin 2))).toInt.toNat = a.val) (h1 : (idx (ix2 e (1 : Fin 2))).toInt.toNat = b.val) :
    Host.gather gather_S8192x8192_S4096x2_S4096_n_01_n_n_01_1_11 x idx (ix1 e) = x (ix2 a b) := by
  rw [gather_point_apply]
  have ea : (⟨min (idx (ix2 e (0 : Fin 2))).toInt.toNat 8191, by omega⟩ : Fin 8192) = a :=
    Fin.ext (by show min (idx (ix2 e (0 : Fin 2))).toInt.toNat 8191 = a.val; rw [h0]; have := a.isLt; omega)
  have eb : (⟨min (idx (ix2 e (1 : Fin 2))).toInt.toNat 8191, by omega⟩ : Fin 8192) = b :=
    Fin.ext (by show min (idx (ix2 e (1 : Fin 2))).toInt.toNat 8191 = b.val; rw [h1]; have := b.isLt; omega)
  rw [ea, eb]

/-- Column 0 of row `e` of the first gather's index array, read as a signed integer, is the entry's own number. -/
theorem idx0_col0 (e : Fin 4096) :
    (Read.val_main_call0_v16 (F := Ideal) (ix2 e (0 : Fin 2))).toInt.toNat = e.val := by
  have h : Read.val_main_call0_v16 (F := Ideal) (ix2 e (0 : Fin 2)) = Read.val_main_call0_v14 (F := Ideal) (ix2 e (0 : Fin 1)) := by
    unfold Read.val_main_call0_v16
    exact concatenate_pair_apply_left (t := S4096x2) (s₁ := S4096x1) (s₂ := S4096x1) (1 : Fin 2)
      (Read.val_main_call0_v14 (F := Ideal)) (Read.val_main_call0_v15 (F := Ideal)) _ (ix2 e (0 : Fin 2)) rfl
      (ix2 e (0 : Fin 1)) (fun b => match b with | ⟨0, _⟩ => rfl | ⟨1, _⟩ => rfl)
  rw [h, Read.val_main_call0_v14_apply]
  have ei : Read.idx_main_call0_v14 (ix2 e (0 : Fin 1)) = ix1 e :=
    funext fun a => match a with | ⟨0, _⟩ => rfl
  rw [ei, Read.val_main_call0_v8_apply, Read.val_main_call0_v5_apply, Read.val_main_call0_v7_apply, Read.val_main_call0_v0_apply,
    Read.val_main_call0_v4_apply, Read.val_main_call0_c_0_apply, Read.val_main_call0_v6_apply, Read.val_main_call0_c_1_apply]
  exact wrap_word e.val (by have := e.isLt; omega)

/-- Column 1 of row `e` of the first gather's index array, read as a signed integer, is the entry's number plus 4096. -/
theorem idx0_col1 (e : Fin 4096) :
    (Read.val_main_call0_v16 (F := Ideal) (ix2 e (1 : Fin 2))).toInt.toNat = 4096 + e.val := by
  have h : Read.val_main_call0_v16 (F := Ideal) (ix2 e (1 : Fin 2)) = Read.val_main_call0_v15 (F := Ideal) (ix2 e (0 : Fin 1)) := by
    unfold Read.val_main_call0_v16
    exact concatenate_pair_apply_right (t := S4096x2) (s₁ := S4096x1) (s₂ := S4096x1) (1 : Fin 2)
      (Read.val_main_call0_v14 (F := Ideal)) (Read.val_main_call0_v15 (F := Ideal)) _ (ix2 e (1 : Fin 2)) rfl rfl
      (ix2 e (0 : Fin 1)) (fun b hb => match b, hb with | ⟨0, _⟩, _ => rfl | ⟨1, _⟩, hb => absurd rfl hb) rfl
  rw [h, Read.val_main_call0_v15_apply]
  have ei : Read.idx_main_call0_v15 (ix2 e (0 : Fin 1)) = ix1 e :=
    funext fun a => match a with | ⟨0, _⟩ => rfl
  rw [ei, Read.val_main_call0_v13_apply, Read.val_main_call0_v10_apply, Read.val_main_call0_v12_apply, Read.val_main_call0_v3_apply, Read.val_main_call0_v2_apply, Read.val_main_call0_c_apply,
    Read.val_main_call0_v1_apply, Read.val_main_call0_v9_apply, Read.val_main_call0_c_2_apply, Read.val_main_call0_v11_apply, Read.val_main_call0_c_3_apply]
  show (Scalar.select (IntOp.cmpi .slt (IntOp.addi 4096#32 (BitVec.ofNat 32 e.val)) 0#32)
      (IntOp.addi (IntOp.addi 4096#32 (BitVec.ofNat 32 e.val)) 8192#32)
      (IntOp.addi 4096#32 (BitVec.ofNat 32 e.val))).toInt.toNat = 4096 + e.val
  rw [add_word]
  exact wrap_word (4096 + e.val) (by have := e.isLt; omega)

/-- Column 0 of row `e` of the second gather's index array, read as a signed integer, is the entry's number plus 4096. -/
theorem idx1_col0 (e : Fin 4096) :
    (Read.val_main_call1_v16 (F := Ideal) (ix2 e (0 : Fin 2))).toInt.toNat = 4096 + e.val := by
  have h : Read.val_main_call1_v16 (F := Ideal) (ix2 e (0 : Fin 2)) = Read.val_main_call1_v14 (F := Ideal) (ix2 e (0 : Fin 1)) := by
    unfold Read.val_main_call1_v16
    exact concatenate_pair_apply_left (t := S4096x2) (s₁ := S4096x1) (s₂ := S4096x1) (1 : Fin 2)
      (Read.val_main_call1_v14 (F := Ideal)) (Read.val_main_call1_v15 (F := Ideal)) _ (ix2 e (0 : Fin 2)) rfl
      (ix2 e (0 : Fin 1)) (fun b => match b with | ⟨0, _⟩ => rfl | ⟨1, _⟩ => rfl)
  rw [h, Read.val_main_call1_v14_apply]
  have ei : Read.idx_main_call1_v14 (ix2 e (0 : Fin 1)) = ix1 e :=
    funext fun a => match a with | ⟨0, _⟩ => rfl
  rw [ei, Read.val_main_call1_v8_apply, Read.val_main_call1_v5_apply, Read.val_main_call1_v7_apply, Read.val_main_call1_v3_apply, Read.val_main_call1_v2_apply, Read.val_main_call1_c_apply,
    Read.val_main_call1_v1_apply, Read.val_main_call1_v4_apply, Read.val_main_call1_c_0_apply, Read.val_main_call1_v6_apply, Read.val_main_call1_c_1_apply]
  show (Scalar.select (IntOp.cmpi .slt (IntOp.addi 4096#32 (BitVec.ofNat 32 e.val)) 0#32)
      (IntOp.addi (IntOp.addi 4096#32 (BitVec.ofNat 32 e.val)) 8192#32)
      (IntOp.addi 4096#32 (BitVec.ofNat 32 e.val))).toInt.toNat = 4096 + e.val
  rw [add_word]
  exact wrap_word (4096 + e.val) (by have := e.isLt; omega)

/-- Column 1 of row `e` of the second gather's index array, read as a signed integer, is the entry's own number. -/
theorem idx1_col1 (e : Fin 4096) :
    (Read.val_main_call1_v16 (F := Ideal) (ix2 e (1 : Fin 2))).toInt.toNat = e.val := by
  have h : Read.val_main_call1_v16 (F := Ideal) (ix2 e (1 : Fin 2)) = Read.val_main_call1_v15 (F := Ideal) (ix2 e (0 : Fin 1)) := by
    unfold Read.val_main_call1_v16
    exact concatenate_pair_apply_right (t := S4096x2) (s₁ := S4096x1) (s₂ := S4096x1) (1 : Fin 2)
      (Read.val_main_call1_v14 (F := Ideal)) (Read.val_main_call1_v15 (F := Ideal)) _ (ix2 e (1 : Fin 2)) rfl rfl
      (ix2 e (0 : Fin 1)) (fun b hb => match b, hb with | ⟨0, _⟩, _ => rfl | ⟨1, _⟩, hb => absurd rfl hb) rfl
  rw [h, Read.val_main_call1_v15_apply]
  have ei : Read.idx_main_call1_v15 (ix2 e (0 : Fin 1)) = ix1 e :=
    funext fun a => match a with | ⟨0, _⟩ => rfl
  rw [ei, Read.val_main_call1_v13_apply, Read.val_main_call1_v10_apply, Read.val_main_call1_v12_apply, Read.val_main_call1_v0_apply,
    Read.val_main_call1_v9_apply, Read.val_main_call1_c_2_apply, Read.val_main_call1_v11_apply, Read.val_main_call1_c_3_apply]
  exact wrap_word e.val (by have := e.isLt; omega)

/-- The positive-pair similarities: entry `r` is the similarity matrix's entry at row `r` and the row 4096 away. Below
    4096 it is the first gather's entry `r`, read at `(r, r + 4096)`; from there on the second gather's entry `r - 4096`,
    read at `(r, r - 4096)`. -/
theorem pos_apply (x0 x1 : (⟨S4096x256, .f32⟩ : BufTy).Contents (Elt Ideal)) (r : Fin 8192) :
    Read.val_main_v21 (F := Ideal) x0 x1 (ValueIdx.ix1 r) = Cert.Spec.posR (nA x0) (nB x1) r := by
  unfold Cert.Spec.posR
  rw [← sim_apply]
  unfold Read.val_main_v21
  by_cases h : r.val < 4096
  · have hp : (Cert.Spec.partner r).val = 4096 + r.val := by
      unfold Cert.Spec.partner; rw [dif_pos h]; show r.val + 4096 = 4096 + r.val; omega
    refine (concatenate_pair_apply_left (t := S8192) (s₁ := S4096) (s₂ := S4096) (0 : Fin 1)
      (Read.val_main_v19 (F := Ideal) x0 x1) (Read.val_main_v20 (F := Ideal) x0 x1) _ (ix1 r) rfl
      (ix1 (⟨r.val, h⟩ : Fin 4096)) (fun b => match b with | ⟨0, _⟩ => rfl)).trans ?_
    unfold Read.val_main_v19
    exact gather_point_apply_of _ _ _ r (Cert.Spec.partner r) (idx0_col0 _) ((idx0_col1 _).trans hp.symm)
  · have hr := r.isLt
    have hp : (Cert.Spec.partner r).val = r.val - 4096 := by
      unfold Cert.Spec.partner; rw [dif_neg h]
    refine (concatenate_pair_apply_right (t := S8192) (s₁ := S4096) (s₂ := S4096) (0 : Fin 1)
      (Read.val_main_v19 (F := Ideal) x0 x1) (Read.val_main_v20 (F := Ideal) x0 x1) _ (ix1 r) rfl rfl
      (ix1 (⟨r.val - 4096, by omega⟩ : Fin 4096)) (fun b hb => match b, hb with | ⟨0, _⟩, hb => absurd rfl hb)
      (by show r.val - 4096 + 4096 = r.val; omega)).trans ?_
    unfold Read.val_main_v20
    exact gather_point_apply_of _ _ _ r (Cert.Spec.partner r)
      ((idx1_col0 _).trans (by show 4096 + (r.val - 4096) = r.val; omega)) ((idx1_col1 _).trans hp.symm)

end Cert.ReferenceIdeal.RefValue

end
-- ==== Proof.Finite.lean ====
/-
  Finiteness of everything the loss is built from.

  Over the extended reals an entry may be plus or minus infinity, and the algebra that identifies the two forms of the
  loss (cancelling a term, reassociating a sum) is only valid among real numbers. Three facts supply that:
    • an array all of whose entries satisfy |x| < +∞ has only real entries — this is what the stated condition on the
      two inputs says, once the conjunction over all entries is read back entry by entry;
    • an entry x divided by max(√(Σ_k x_k²), ε), with ε a positive real, is again a real: the sum of squares of reals
      is a nonnegative real, its square root is a real, the maximum with ε is a positive real, and a real divided by a
      nonzero real is a real; so both normalised arrays are real;
    • stacking two real arrays row-wise gives a real array.
-/
import Idealize.ShloMosaic.Lib.ReduceAll
import Idealize.ShloMosaic.Lib.ValueIdx
import proofs.«146991_j9397388444288_2_alg».proof.Pre_finite_inputs
import proofs.«146991_j9397388444288_2_alg».proof.Proof.Gen.Pre_finite_inputs
import proofs.«146991_j9397388444288_2_alg».proof.Proof.Gen.ReferenceIdeal.Read
import proofs.«146991_j9397388444288_2_alg».proof.Proof.Spec

noncomputable section

namespace Cert.Finite

open Idealize.ShloMosaic

/-- A shape of rank zero has exactly one index. -/
instance : Subsingleton Cert.Pre_finite_inputs.S_.Idx := ⟨fun a b => funext fun d => d.elim0⟩

/-- The word with all exponent bits set and no fraction bits denotes plus infinity. -/
theorem inf_word : Ideal.ofBits .f32 0x7F800000#32 = (⊤ : EReal) := by
  simp [Ideal.ofBits, Ideal.ieee]

/-- An extended real whose absolute value lies strictly below plus infinity is a real number. -/
theorem real_of_abs_lt_top (x : EReal) (h : Ideal.cmp .olt (max x (-x)) (⊤ : EReal) = 1#1) :
    ∃ r : ℝ, x = (r : EReal) := by
  induction x using EReal.rec with
  | bot => simp [Ideal.cmp] at h
  | coe r => exact ⟨r, rfl⟩
  | top => simp [Ideal.cmp] at h

/-- One array's share of the precondition, read at an index: the comparison of the entry's absolute value with plus
    infinity came out true. -/
theorem real_of_all [Cert.Pre_finite_inputs.Facts] (x : FVec Ideal Cert.Pre_finite_inputs.S4096x256 .f32)
    (init : IVec Cert.Pre_finite_inputs.S_ 1)
    (e : Host.reduce IntOp.andi
          (cmpf .olt (Host.absf x)
            (broadcastInDim Cert.Pre_finite_inputs.S4096x256 ![] Cert.Pre_finite_inputs.Facts.bcast_S_S4096x256
              (constant (F := Ideal) Cert.Pre_finite_inputs.S_ .f32 0x7F800000#32)))
          init Cert.Pre_finite_inputs.Facts.reducesTo_S4096x256_S_d0_1 Cert.Pre_finite_inputs.Facts.h_S_ ValueIdx.ix0 = 1#1) :
    ∀ i, ∃ r : ℝ, x i = (r : EReal) := by
  intro i
  have hi := Host.reduce_andi_all _ init _ _ ValueIdx.ix0 e i
  refine real_of_abs_lt_top (x i) ?_
  rw [← inf_word]
  exact hi

theorem real_of_pre [Cert.Pre_finite_inputs.Facts] (x0 x1 : FVec Ideal Cert.Pre_finite_inputs.S4096x256 .f32)
    (h : Cert.Pre_finite_inputs.fn (F := Ideal) x0 x1 = fun _ => 1#1) :
    (∀ i, ∃ r : ℝ, x0 i = (r : EReal)) ∧ (∀ i, ∃ r : ℝ, x1 i = (r : EReal)) := by
  have e := congrFun h ValueIdx.ix0
  dsimp only [Cert.Pre_finite_inputs.fn] at e
  obtain ⟨e0, e1⟩ := IntOp.andi_eq_one.1 e
  exact ⟨real_of_all x0 _ e0, real_of_all x1 _ e1⟩

/-- The coercion from the reals commutes with a finite sum. -/
theorem coe_sum {ι : Type} (s : Finset ι) (g : ι → ℝ) :
    ∑ k ∈ s, ((g k : ℝ) : EReal) = ((∑ k ∈ s, g k : ℝ) : EReal) := by
  classical
  induction s using Finset.induction_on with
  | empty => simp
  | insert a s ha ih => rw [Finset.sum_insert ha, Finset.sum_insert ha, ih, EReal.coe_add]

/-- A sum of squares of reals, started from zero, is a nonnegative real. -/
theorem sum_sq_real (f : Fin 256 → EReal) (hf : ∀ k, ∃ r : ℝ, f k = (r : EReal)) :
    ∃ t : ℝ, 0 ≤ t ∧ (0 : EReal) + ∑ k : Fin 256, f k * f k = (t : EReal) := by
  choose g hg using hf
  refine ⟨∑ k : Fin 256, g k * g k, Finset.sum_nonneg fun k _ => mul_self_nonneg (g k), ?_⟩
  rw [zero_add, ← coe_sum]
  exact Finset.sum_congr rfl fun k _ => by rw [hg k, EReal.coe_mul]

/-- A real divided by the larger of the square root of a nonnegative real and a positive real is a real. -/
theorem div_max_sqrt_real (x t c : ℝ) (ht : 0 ≤ t) (hc : 0 < c) :
    ∃ y : ℝ, Ideal.div (x : EReal) (max (Ideal.sqrt (t : EReal)) (c : EReal)) = (y : EReal) := by
  rw [Ideal.sqrt_coe, if_neg (not_lt.2 ht)]
  obtain ⟨m, hm, e⟩ : ∃ m : ℝ, 0 < m ∧ max ((Real.sqrt t : ℝ) : EReal) (c : EReal) = (m : EReal) := by
    rcases le_total (Real.sqrt t) c with h | h
    · exact ⟨c, hc, max_eq_right (EReal.coe_le_coe_iff.2 h)⟩
    · exact ⟨Real.sqrt t, lt_of_lt_of_le hc h, max_eq_left (EReal.coe_le_coe_iff.2 h)⟩
  rw [e, Ideal.div_coe (ne_of_gt hm), ← EReal.coe_mul]
  exact ⟨_, rfl⟩

/-- The word 0x2B8CBCCC denotes a positive real (9223372 · 2⁻⁶³, about 10⁻¹²). -/
theorem eps_word : ∃ c : ℝ, 0 < c ∧ Ideal.ofBits .f32 0x2B8CBCCC#32 = (c : EReal) := by
  refine ⟨9223372 * (2 ^ 63)⁻¹, by positivity, ?_⟩
  simp [Ideal.ofBits, Ideal.ieee]

/-- Every entry of the first argument, divided by the larger of its row's Euclidean length and the small positive
    constant, is a real: the row's sum of squares is a nonnegative real, so its square root is a real, the maximum
    with a positive real is a positive real, and a real divided by a nonzero real is a real. -/
theorem nrm_real_v7 (x0 : (⟨Cert.ReferenceIdeal.S4096x256, .f32⟩ : BufTy).Contents (Elt Ideal))
    (hx : ∀ i, ∃ r : ℝ, x0 i = (r : EReal)) :
    ∀ i, ∃ y : ℝ, Cert.ReferenceIdeal.Read.val_main_v7 (F := Ideal) x0 i = (y : EReal) := by
  intro i
  obtain ⟨xr, hxr⟩ := hx i
  obtain ⟨c, hc, ec⟩ := eps_word
  obtain ⟨t, ht, et⟩ := sum_sq_real
    (fun k => x0 (Cert.ReferenceIdeal.Read.idx_main_v1
      (Cert.ReferenceIdeal.Read.idx_main_v2 (Cert.ReferenceIdeal.Read.idx_main_v6 i)) k)) (fun k => hx _)
  obtain ⟨y, hy⟩ := div_max_sqrt_real xr t c ht hc
  refine ⟨y, ?_⟩
  rw [Cert.ReferenceIdeal.Read.val_main_v7_apply, Cert.ReferenceIdeal.Read.val_main_v6_apply,
    Cert.ReferenceIdeal.Read.val_main_v5_apply, Cert.ReferenceIdeal.Read.val_main_v3_apply,
    Cert.ReferenceIdeal.Read.val_main_v2_apply, Cert.ReferenceIdeal.Read.val_main_v1_apply,
    Cert.ReferenceIdeal.Read.val_main_v4_apply, Cert.ReferenceIdeal.Read.val_main_cst_0_apply,
    Cert.ReferenceIdeal.Read.val_main_cst_apply]
  simp only [Cert.ReferenceIdeal.Read.val_main_v0_apply, Ideal.hostDivf_def, Ideal.maximumf_def,
    Ideal.hostUnary_sqrt_def, Ideal.mulf_def, Ideal.ofBits_def, Ideal.ofBits_zero_f32]
  rw [hxr, ec, et]
  exact hy

/-- The same for the second argument. -/
theorem nrm_real_v15 (x1 : (⟨Cert.ReferenceIdeal.S4096x256, .f32⟩ : BufTy).Contents (Elt Ideal))
    (hx : ∀ i, ∃ r : ℝ, x1 i = (r : EReal)) :
    ∀ i, ∃ y : ℝ, Cert.ReferenceIdeal.Read.val_main_v15 (F := Ideal) x1 i = (y : EReal) := by
  intro i
  obtain ⟨xr, hxr⟩ := hx i
  obtain ⟨c, hc, ec⟩ := eps_word
  obtain ⟨t, ht, et⟩ := sum_sq_real
    (fun k => x1 (Cert.ReferenceIdeal.Read.idx_main_v9
      (Cert.ReferenceIdeal.Read.idx_main_v10 (Cert.ReferenceIdeal.Read.idx_main_v14 i)) k)) (fun k => hx _)
  obtain ⟨y, hy⟩ := div_max_sqrt_real xr t c ht hc
  refine ⟨y, ?_⟩
  rw [Cert.ReferenceIdeal.Read.val_main_v15_apply, Cert.ReferenceIdeal.Read.val_main_v14_apply,
    Cert.ReferenceIdeal.Read.val_main_v13_apply, Cert.ReferenceIdeal.Read.val_main_v11_apply,
    Cert.ReferenceIdeal.Read.val_main_v10_apply, Cert.ReferenceIdeal.Read.val_main_v9_apply,
    Cert.ReferenceIdeal.Read.val_main_v12_apply, Cert.ReferenceIdeal.Read.val_main_cst_2_apply,
    Cert.ReferenceIdeal.Read.val_main_cst_1_apply]
  simp only [Cert.ReferenceIdeal.Read.val_main_v8_apply, Ideal.hostDivf_def, Ideal.maximumf_def,
    Ideal.hostUnary_sqrt_def, Ideal.mulf_def, Ideal.ofBits_def, Ideal.ofBits_zero_f32]
  rw [hxr, ec, et]
  exact hy

/-- Stacking two arrays of reals gives an array of reals. -/
theorem stack_real (a b : Fin 4096 → Fin 256 → EReal) (ha : ∀ r d, ∃ x : ℝ, a r d = (x : EReal))
    (hb : ∀ r d, ∃ x : ℝ, b r d = (x : EReal)) : ∀ r d, ∃ x : ℝ, Cert.Spec.stack a b r d = (x : EReal) := by
  intro r d
  unfold Cert.Spec.stack
  split_ifs with h
  · exact ha _ d
  · exact hb _ d

end Cert.Finite

end
-- ==== Proof.Bridge.lean ====
/-
  The reference program's loss, written with the host operations both programs share.

  The reference's two normalised arrays are the shared normalisation of its two arguments, term for term, and its last
  operations are the shared tail applied to its vector of positive-pair similarities and its vector of masked row sums.
  Those two vectors are, entry by entry, what the specification calls `posR` and `denomR` of the normalised rows; the
  two laws turn them into `posK` and `denomK`, the forms the other program computes — the second law among real
  entries only, which the normalisation of real inputs provides. So the shared tail applied to the row-sum form of
  the positive pairs and to the eight-runs-less-diagonal form of the denominators is the reference's loss.
-/
import proofs.«146991_j9397388444288_2_alg».proof.Proof.RefRead
import proofs.«146991_j9397388444288_2_alg».proof.Proof.HostSpec
import proofs.«146991_j9397388444288_2_alg».proof.Proof.Law
import proofs.«146991_j9397388444288_2_alg».proof.Proof.Finite

noncomputable section

namespace Cert.Bridge

open Idealize.ShloMosaic Idealize.ShloMosaic.ValueIdx Cert.ReferenceIdeal Cert.ReferenceIdeal.RefValue

/-- The reference's first normalised array is the shared normalisation of its first argument. -/
theorem nrm7 (x0 : (⟨Cert.ReferenceIdeal.S4096x256, .f32⟩ : BufTy).Contents (Elt Ideal)) :
    Read.val_main_v7 (F := Ideal) x0 = Cert.HostSpec.nrm x0 := by
  unfold Cert.HostSpec.nrm Read.val_main_v7 Read.val_main_v6 Read.val_main_v5 Read.val_main_v4 Read.val_main_v3
    Read.val_main_v2 Read.val_main_v1 Read.val_main_v0 Read.val_main_cst Read.val_main_cst_0
  rfl

/-- The reference's second normalised array is the shared normalisation of its second argument. -/
theorem nrm15 (x1 : (⟨Cert.ReferenceIdeal.S4096x256, .f32⟩ : BufTy).Contents (Elt Ideal)) :
    Read.val_main_v15 (F := Ideal) x1 = Cert.HostSpec.nrm x1 := by
  unfold Cert.HostSpec.nrm Read.val_main_v15 Read.val_main_v14 Read.val_main_v13 Read.val_main_v12 Read.val_main_v11
    Read.val_main_v10 Read.val_main_v9 Read.val_main_v8 Read.val_main_cst_1 Read.val_main_cst_2
  rfl

/-- The reference's last operations are the shared tail of its two vectors. -/
theorem loss41 (x0 x1 : (⟨Cert.ReferenceIdeal.S4096x256, .f32⟩ : BufTy).Contents (Elt Ideal)) :
    Read.val_main_v41 (F := Ideal) x0 x1
      = Cert.HostSpec.lossOf (Read.val_main_v21 (F := Ideal) x0 x1) (Read.val_main_v34 (F := Ideal) x0 x1) := by
  unfold Cert.HostSpec.lossOf Read.val_main_v41 Read.val_main_v40 Read.val_main_v39 Read.val_main_v38 Read.val_main_v37
    Read.val_main_v36 Read.val_main_v35 Read.val_main_cst_6 Read.val_main_cst_7 Read.val_main_cst_8
  rfl

/-- The first normalised array by rows and columns. -/
theorem nA_eq (x0 : (⟨Cert.ReferenceIdeal.S4096x256, .f32⟩ : BufTy).Contents (Elt Ideal)) :
    nA x0 = fun r d => Cert.HostSpec.nrm x0 (ValueIdx.ix2 r d) := by
  unfold nA; rw [nrm7]

/-- The second normalised array by rows and columns. -/
theorem nB_eq (x1 : (⟨Cert.ReferenceIdeal.S4096x256, .f32⟩ : BufTy).Contents (Elt Ideal)) :
    nB x1 = fun r d => Cert.HostSpec.nrm x1 (ValueIdx.ix2 r d) := by
  unfold nB; rw [nrm15]

/-- The row sums of the product of the two normalised arrays, twice end to end, are the reference's positive-pair
    similarities: row by row the first law turns the row sum into the similarity of a row and the row 4096 away. -/
theorem pos_bridge (x0 x1 : (⟨Cert.ReferenceIdeal.S4096x256, .f32⟩ : BufTy).Contents (Elt Ideal)) :
    Cert.HostSpec.posVec (Cert.HostSpec.nrm x0) (Cert.HostSpec.nrm x1) = Read.val_main_v21 (F := Ideal) x0 x1 := by
  funext i
  obtain ⟨r, rfl⟩ : ∃ r : Fin 8192, i = ix1 r := ⟨i 0, eq_ix1 i⟩
  rw [Cert.HostSpec.posVec_apply, Cert.Law.posK_eq_posR, pos_apply, nA_eq, nB_eq]

/-- The eight runs less the diagonal term, over the stacked normalised rows, are the reference's masked row sums: the
    stacked rows of real inputs are real, so the second law applies row by row. -/
theorem den_bridge (x0 x1 : (⟨Cert.ReferenceIdeal.S4096x256, .f32⟩ : BufTy).Contents (Elt Ideal))
    (h0 : ∀ i, ∃ r : ℝ, x0 i = (r : EReal)) (h1 : ∀ i, ∃ r : ℝ, x1 i = (r : EReal)) :
    (fun i : Cert.HostSpec.S8192.Idx =>
      Cert.Spec.denomK (Cert.Spec.stack (fun r d => Cert.HostSpec.nrm x0 (ValueIdx.ix2 r d))
        (fun r d => Cert.HostSpec.nrm x1 (ValueIdx.ix2 r d))) ⟨(i 0).val, (i 0).isLt⟩)
      = Read.val_main_v34 (F := Ideal) x0 x1 := by
  funext i
  obtain ⟨r, rfl⟩ : ∃ r : Fin 8192, i = ix1 r := ⟨i 0, eq_ix1 i⟩
  show Cert.Spec.denomK (Cert.Spec.stack (fun r d => Cert.HostSpec.nrm x0 (ValueIdx.ix2 r d))
        (fun r d => Cert.HostSpec.nrm x1 (ValueIdx.ix2 r d))) r = _
  rw [denom_apply, ← nA_eq, ← nB_eq]
  exact Cert.Law.denomK_eq_denomR _
    (Cert.Finite.stack_real _ _ (fun r d => Cert.Finite.nrm_real_v7 x0 h0 (ValueIdx.ix2 r d))
      (fun r d => Cert.Finite.nrm_real_v15 x1 h1 (ValueIdx.ix2 r d))) r

/-- The shared tail applied to the two forms the other program computes is the reference's loss. -/
theorem loss_bridge (x0 x1 : (⟨Cert.ReferenceIdeal.S4096x256, .f32⟩ : BufTy).Contents (Elt Ideal))
    (h0 : ∀ i, ∃ r : ℝ, x0 i = (r : EReal)) (h1 : ∀ i, ∃ r : ℝ, x1 i = (r : EReal)) :
    Cert.HostSpec.lossOf (Cert.HostSpec.posVec (Cert.HostSpec.nrm x0) (Cert.HostSpec.nrm x1))
      (fun i : Cert.HostSpec.S8192.Idx =>
        Cert.Spec.denomK (Cert.Spec.stack (fun r d => Cert.HostSpec.nrm x0 (ValueIdx.ix2 r d))
          (fun r d => Cert.HostSpec.nrm x1 (ValueIdx.ix2 r d))) ⟨(i 0).val, (i 0).isLt⟩)
      = Read.val_main_v41 (F := Ideal) x0 x1 := by
  rw [pos_bridge, den_bridge x0 x1 h0 h1, loss41]

end Cert.Bridge

end
-- ==== Proof.lean ====
/-
  The claim: the word-level kernel, its idealization and the reference each run to the end leaving their arguments as they
  were, and the idealized kernel and the reference return the same extended real.

  Both programs normalise the rows of their two arguments and stack them into one array `z` of 8192 rows. For each row `r` the
  loss needs the sum over the OTHER rows `c` of `exp (2 · ⟨z r, z c⟩)`. The reference masks the diagonal and sums once; the kernel
  sums ALL rows in eight runs of 1024 and subtracts the diagonal term. The two agree because every entry of `z` is a real
  number when the inputs are finite (the precondition is used exactly there: `s + e - e = s` needs `e` finite), because a sum
  may be cut into runs, and because dividing by one half is multiplying by two. The positive pair's similarity is a row sum of a
  product of the two halves in the kernel and an off-diagonal entry of `z zᵀ` in the reference: the same sum, its factors
  swapped in the second half. From these two vectors both programs compute the loss by the same operations.

  The kernel's region reads `z` through two windows at once; its run (Proof/IdealRun.lean, Proof/WordRun.lean) holds the array by
  halves of its permission. The idealization rewrote nothing, so the fourth conjunct is `True`.
-/
import proofs.«146991_j9397388444288_2_alg».proof.Defs
import proofs.«146991_j9397388444288_2_alg».proof.Proof.WordRun
import proofs.«146991_j9397388444288_2_alg».proof.Proof.IdealRun
import proofs.«146991_j9397388444288_2_alg».proof.Proof.IdealResult
import proofs.«146991_j9397388444288_2_alg».proof.Proof.Bridge
import proofs.«146991_j9397388444288_2_alg».proof.Proof.Finite
import proofs.«146991_j9397388444288_2_alg».proof.Proof.Gen.Kernel
import proofs.«146991_j9397388444288_2_alg».proof.Proof.Gen.KernelIdeal
import proofs.«146991_j9397388444288_2_alg».proof.Proof.Gen.ReferenceIdeal
import proofs.«146991_j9397388444288_2_alg».proof.Proof.Gen.ReferenceIdeal.Run
import proofs.«146991_j9397388444288_2_alg».proof.Proof.Gen.ReferenceIdeal.Read
import proofs.«146991_j9397388444288_2_alg».proof.Proof.Gen.Pre_finite_inputs
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Run.frame m ρ
theorem frame_ki : Cert.frame_KernelIdeal := fun m ρ _ => Cert.KernelIdeal.Run.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealized kernel and the reference, from memories agreeing on the arguments, return the same value: the kernel's
    result is the common loss of its two vectors, the reference's is the same loss of vectors equal to them entry by entry. -/
theorem algebraic : Cert.algebraic_KernelIdeal_ReferenceIdeal := by
  intro m ρ m' ρ' hpre hagree
  refine ⟨fun c => Cert.KernelIdeal.Run.W3 m ρ c (Proc.devRef .tc Cert.KernelIdeal.main_v30), ?_, ?_⟩
  · exact (θ_run Cert.KernelIdeal.defs _ _).mono (fun r h c =>
      ⟨h c _ (Cert.KernelIdeal.Run.mem_uc Cert.KernelIdeal.main_v30 (by decide)),
       (h c _ (Cert.KernelIdeal.Run.mem_uc Cert.KernelIdeal.main_arg0 (by decide))).trans (Cert.KernelIdeal.Run.W3_main_arg0 m ρ c),
       (h c _ (Cert.KernelIdeal.Run.mem_uc Cert.KernelIdeal.main_arg1 (by decide))).trans (Cert.KernelIdeal.Run.W3_main_arg1 m ρ c)⟩)
      (Cert.KernelIdeal.Run.run_main m ρ)
  · refine (θ_run Cert.ReferenceIdeal.defs _ _).mono (fun r h c => ⟨(h c).1.trans ?_, (h c).2⟩)
      (Cert.ReferenceIdeal.Value.run (F := Ideal) m' ρ')
    obtain ⟨h0, h1⟩ := Cert.Finite.real_of_pre _ _ (hpre c)
    rw [Cert.ReferenceIdeal.Read.val_main_v41_eq, (hagree c).1, (hagree c).2]
    exact ((Cert.KernelIdeal.Result.result m ρ c).trans (Cert.Bridge.loss_bridge _ _ h0 h1)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
